-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1024x1024 : Shape := ⟨2, ![1024, 1024]⟩
abbrev S1024x16 : Shape := ⟨2, ![1024, 16]⟩
abbrev S16x1024 : Shape := ⟨2, ![16, 1024]⟩
abbrev S8192x4096 : Shape := ⟨2, ![8192, 4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .bf16⟩
  | .hbm, ⟨6, _⟩ => ⟨S8192x4096, .f32⟩
  | .hbm, ⟨7, _⟩ => ⟨S8192x4096, .bf16⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x256, .bf16⟩
  | .local _ .vmem, ⟨9, _⟩ => ⟨S2048x256, .bf16⟩
  | .local _ .vmem, ⟨10, _⟩ => ⟨S1024x256, .bf16⟩
  | .local _ .vmem, ⟨11, _⟩ => ⟨S1024x256, .bf16⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 4, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S1024x16_S16x1024_S1024x1024_1_0_0_1_n_n_wf : DotDims.WF S1024x16 S16x1024 S1024x1024 [1] [0] [0] [1] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x4096.size a
  hwx1_0 : ∀ i : grid1.Coords, EltTy.bits .bf16 = 32 ∨ (Rect.block (s := S8192x4096) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x4096.size a
  hwx1_1 : ∀ i : grid1.Coords, EltTy.bits .bf16 = 32 ∨ (Rect.block (s := S4096x4096) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.KI.R0.lean ====
/-
  Region 0 (the weight fold): at every grid point (o, i) the body reads the weight block [1024,1024], the B block
  [1024,16] and the A block [16,1024] whole, and stores weight + 2·(B·A) whole into the output block. Stated at
  a parameter V (the TensorCore's buffers when the region is entered): each window's block at a point, what the
  body leaves in the output's staging buffer as one piece over the three input blocks, the body's triple, the
  pipeline's proof data and the body obligation at every point.
-/
import proofs.«126282_j75548474736691_2_alg».proof.Proof.Gen.KernelIdeal.Launch
import proofs.«126282_j75548474736691_2_alg».proof.Proof.Gen.KernelIdeal.Skeleton
import proofs.«126282_j75548474736691_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_W : Rect S1024x1024 := Rect.unit (s := S1024x1024) ![0, 0] S1024x1024.size inb_S1024x1024_S1024x1024_0_0
abbrev r0_B : Rect S1024x16 := Rect.unit (s := S1024x16) ![0, 0] S1024x16.size inb_S1024x16_S1024x16_0_0
abbrev r0_A : Rect S16x1024 := Rect.unit (s := S16x1024) ![0, 0] S16x1024.size inb_S16x1024_S16x1024_0_0

/-- The output block after the body, from the weight block x0, the B block x1 and the A block x2: one piece, the
    whole block, holding the payload weight + 2·(B·A). -/
def out0_3 (x0 : Vec F S1024x1024 .f32) (x1 : Vec F S1024x16 .f32) (x2 : Vec F S16x1024 .f32) : Vec F S1024x1024 .bf16 :=
  View.canon [⟨r0_W, k0_pay1 (View.ld x1 r0_B) (View.ld x2 r0_A) (View.ld x0 r0_W)⟩]

/-- The one store covers the block. -/
theorem cover0_3 (p0 : Vec F S1024x1024 .bf16) (y : S1024x1024.Idx) :
    ∃ pc ∈ ([⟨r0_W, p0⟩] : List (View.Piece (Elt F) S1024x1024 .bf16)), y ∈ pc.1.set :=
  View.cover_of_tiled [⟨r0_W, p0⟩] S1024x1024.size (by rfl) y

set_option maxHeartbeats 1000000 in
/-- The body on whole staging memrefs, the inputs' at x0 x1 x2 and the output's at anything, runs to the continuation
    with the inputs as they were and the output's at out0_3 of the inputs. -/
theorem sound_kernel0 (c : Dev nD) (i : grid0.Coords) (E : Set ℕ) (arg2 : Memref sig .tc .vmem S1024x1024 .f32) (harg2 : arg2.IsWhole)
    (arg3 : Memref sig .tc .vmem S1024x16 .f32) (harg3 : arg3.IsWhole) (arg4 : Memref sig .tc .vmem S16x1024 .f32) (harg4 : arg4.IsWhole)
    (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__weff_kernel i arg2 harg2 arg3 harg3 arg4 harg4 arg5 harg5) K := by
  simp only [cc0__weff_kernel_eq_skeleton]; unfold cc0__weff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core c: the arrays as the region finds them; after the body each input's
    buffer at its block, the output's at out0_3 of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c _ Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.R1Runs.lean ====
/-
  Region 1 (the K-blocked product): what the three cases of the body share. The body's first conditional holds at
  the first K-block of an output block (grid coordinate k = 0: the accumulator is zeroed), its second at the last
  (k = 15: accumulator plus bias is stored into the output block); in between the accumulator only grows. Here: each
  window's block at a point, the two conditions in closed form over the grid, where the output window is idle, the
  memrefs the body is called with, and the region invariant with the accumulator split off.
-/
import proofs.«126282_j75548474736691_2_alg».proof.Proof.Gen.KernelIdeal.Launch
import proofs.«126282_j75548474736691_2_alg».proof.Proof.Gen.KernelIdeal.Skeleton
import proofs.«126282_j75548474736691_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first conditional's condition, from the grid coordinates: k = 0. -/
abbrev cond1_0 (i : grid1.Coords) : Prop := (Scalar.cmpi .ne (Scalar.extui (Scalar.cmpi .eq (BitVec.ofNat 32 (i 2).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition: k = 15. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second conditional fails the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it holds the output window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S2048x1024 .f32 := (Memref.whole cc1_stg3_0 : Memref sig .tc .vmem S2048x1024 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S2048x1024 .f32 := Memref.whole cc1_scratch0
abbrev VS1_0 : View sig .tc .vmem S2048x1024 .f32 := scM1_0.view

/-- The class invariant's shape with the accumulator's place held by P: the core's other scoped buffers (region 0's
    staging buffers), each whole at some contents and riding through region 1 untouched, then P, beside the generator
    register at some state. -/
def withAcc1 (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P) ∗ (∃ r, prngReg c r))

/-- The class invariant is that shape with the accumulator owned at some contents. -/
theorem PhiA1_eq (c : Dev nD) :
    (Pipeline.ΦA spec1 c : sProp 𝕄) = withAcc1 c iprop(∃ d, owns (c : Thread nD τ) scM1_0 fullShare d) := by
  unfold Pipeline.ΦA withAcc1; rw [scopedRest1_eq]; simp only [scM1_0, owns_whole]; try rfl

end Cert.KernelIdeal.Fr

end
-- ==== Proof.KI.R1A.lean ====
/-
  Region 1, the body's run at the first K-block of an output block (k = 0): the accumulator is zeroed, then the block's product is added; nothing is stored into the output block.
  The pieces the accumulator (and, at the last K-block, the output block) ends with are found by the run itself.
-/
import proofs.«126282_j75548474736691_2_alg».proof.Proof.KI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output's staging memref (L3) and in the accumulator (LS0), last first, with
    the proof that on whole memrefs — the inputs' at x0 x1 x2, the idle output's at xi3, handed back untouched, the accumulator's at
    anything — the body runs to the continuation holding the inputs as they were and each stored buffer with its pieces written. -/
noncomputable def kernelRun1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R1B.lean ====
/-
  Region 1, the body's run at a middle K-block (0 < k < 15): the block's product is added to the accumulator the point before left; nothing is stored into the output block.
  The pieces the accumulator (and, at the last K-block, the output block) ends with are found by the run itself.
-/
import proofs.«126282_j75548474736691_2_alg».proof.Proof.KI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output's staging memref (L3) and in the accumulator (LS0), last first, with
    the proof that on whole memrefs — the inputs' at x0 x1 x2, the idle output's at xi3, handed back untouched, the accumulator's at
    xs0 — the body runs to the continuation holding the inputs as they were and each stored buffer with its pieces written. -/
noncomputable def kernelRun1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs0 : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R1C.lean ====
/-
  Region 1, the body's run at the last K-block (k = 15): the block's product is added to the accumulator the point before left, and accumulator plus bias is stored into the output block.
  The pieces the accumulator (and, at the last K-block, the output block) ends with are found by the run itself.
-/
import proofs.«126282_j75548474736691_2_alg».proof.Proof.KI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output's staging memref (L3) and in the accumulator (LS0), last first, with
    the proof that on whole memrefs — the inputs' at x0 x1 x2, the output's at anything, the accumulator's at
    xs0 — the body runs to the continuation holding the inputs as they were and each stored buffer with its pieces written. -/
noncomputable def kernelRun1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.R1Outs.lean ====
/-
  Region 1: what each of the body's three cases leaves in the accumulator and in the output block, read back from the
  pieces its run found, and that those pieces cover the buffer.
-/
import proofs.«126282_j75548474736691_2_alg».proof.Proof.KI.R1A
import proofs.«126282_j75548474736691_2_alg».proof.Proof.KI.R1B
import proofs.«126282_j75548474736691_2_alg».proof.Proof.KI.R1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output's staging buffer: its pieces read back over junk (none: a placeholder nothing consults, the window being idle and not written back at these points). -/
def out1_A_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) : Vec F S2048x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's pieces for the accumulator tile it, so they cover it. -/
theorem scover1_A_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y

/-- What case A leaves in the accumulator: its pieces read back over junk. -/
def sout1_A_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) : Vec F S2048x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output's staging buffer: its pieces read back over junk (none: a placeholder nothing consults, the window being idle and not written back at these points). -/
def out1_B_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs0 : Vec F S2048x1024 .f32) : Vec F S2048x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for the accumulator tile it, so they cover it. -/
theorem scover1_B_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y

/-- What case B leaves in the accumulator: its pieces read back over junk. -/
def sout1_B_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs0 : Vec F S2048x1024 .f32) : Vec F S2048x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At the last K-block the body's pieces for the output block tile it, so they cover it. -/
theorem cover1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y

/-- What case C leaves in the output's staging buffer: its pieces read back over junk. -/
def out1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for the accumulator tile it, so they cover it. -/
theorem scover1_C_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y

/-- What case C leaves in the accumulator: its pieces read back over junk. -/
def sout1_C_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) : Vec F S2048x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

end Cert.KernelIdeal.Fr

end
-- ==== Proof.KI.R1.lean ====
/-
  Region 1 (the K-blocked product), the rest of its half: what the accumulator and the output block hold after each
  grid point, by recursion on the point (the accumulator restarts at the first K-block of each output block and
  otherwise continues from what the point before left); the region invariant carrying the accumulator at those
  contents; the pipeline's proof data; the body obligation at every point; and that the invariant starts as and
  gives back the class's.
-/
import proofs.«126282_j75548474736691_2_alg».proof.Proof.KI.R1Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the output's staging buffer and the accumulator hold after the body at position n: the case the closed
    forms select at n, run at the point's memrefs and input blocks, the accumulator taken from what position n - 1 left. -/
def outsAt1 (c : Dev nD) : (n : ℕ) → n < cfg1.N → Vec F S2048x1024 .f32 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's; afterwards the same shape with the
    accumulator at what the point before left in it. -/
def PhiS1 (c : Dev nD) : (n : ℕ) → n ≤ cfg1.N → sProp 𝕄
  | 0, _ => Pipeline.ΦA spec1 c
  | n + 1, hn => withAcc1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = withAcc1 c (owns (c : Thread nD τ) scM1_0 fullShare ((outsAt1 V c n hn).2)) := rfl

theorem PhiS1_pos (c : Dev nD) (n : ℕ) (h : n ≤ cfg1.N) (hz : n ≠ 0) :
    PhiS1 V c n h = withAcc1 c (owns (c : Thread nD τ) scM1_0 fullShare ((outsAt1 V c (n - 1) (by omega)).2)) := by
  cases n with
  | zero => exact absurd rfl hz
  | succ n => rfl

/-- The proof data of pipeline 1 on core c: the arrays as the region finds them; after the body each input's
    buffer at its block, the output's at outsAt1's first component; the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything before the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]; unfold withAcc1
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]; unfold withAcc1
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]; unfold withAcc1
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]; unfold withAcc1
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold withAcc1
  iintro ⟨⟨Ha0, Ha1, Ha2, Ha3, Ha4, Ha5, Ha6, Ha7, HS0⟩, Hg⟩
  isplitl [Ha0 Ha1 Ha2 Ha3 Ha4 Ha5 Ha6 Ha7 HS0]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    iexists _; iexact HS0
  iexact Hg

end Region1

end Cert.KernelIdeal.Fr

end
-- ==== Proof.KI.Run.lean ====
/-
  The whole run of @main: region 0 (the weight fold), three host operations (x as a matrix of 8192 rows, its cast,
  the bias as a row), region 1 (the K-blocked product with the bias added), one host operation (the result back in
  three axes). The buffers' contents at every boundary are a fold from the launch memory: a host stretch applies its
  operations, a region leaves its arrays at what its write-backs leave. Every weakly fair execution terminates with
  every unscoped buffer at the last boundary's contents; in particular the five arguments end as launched.
-/
import proofs.«126282_j75548474736691_2_alg».proof.Proof.KI.R0
import proofs.«126282_j75548474736691_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m ((c : Dev nD), b)
/-- The same read at the TensorCore's references: what region 0's proof data take. -/
abbrev V0 : (c : Dev nD) → (b : Ref sig .tc) → Buf (Elt F) ((c : Thread nD τ).loc b) := fun c b => W0 m c b
/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the three host operations between the regions (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host operation: the contents at the return. -/
abbrev W4 : Dev nD → Valuation τ sig (Elt F) := fun c => StableHlo.after hostOps2 (W3 m c)

/-! ## The arguments end as launched -/

/-- main_arg0 reaches the end as launched: no host operation writes it and no region's output is it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W1_of_ne m c main_arg0 (by decide)
    _ = m ((c : Thread nD τ).loc main_arg0) := rfl

/-- main_arg1 reaches the end as launched: no host operation writes it and no region's output is it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 0).trans (((dat0 (V0 m) c).arrAt_in 0 rfl _).trans (A_eq0 (V0 m) c 0))
    _ = m ((c : Thread nD τ).loc main_arg1) := rfl

/-- main_arg2 reaches the end as launched: no host operation writes it and no region's output is it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

/-- main_arg3 reaches the end as launched: no host operation writes it and no region's output is it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := (W1_arr m c 2).trans (((dat0 (V0 m) c).arrAt_in 2 rfl _).trans (A_eq0 (V0 m) c 2))
    _ = m ((c : Thread nD τ).loc main_arg3) := rfl

/-- main_arg4 reaches the end as launched: no host operation writes it and no region's output is it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg4) := W3_of_ne m c main_arg4 (by decide)
    _ = W1 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg4) := (W1_arr m c 1).trans (((dat0 (V0 m) c).arrAt_in 1 rfl _).trans (A_eq0 (V0 m) c 1))
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m c) ∗ ∃ r, prngReg c r)

/-! ## The regions as segments -/

/-- Region 1's invariant starts as, and after the last point gives back, the scoped rest beside the generator register. -/
theorem hin1' (V : (c : Dev nD) → (b : Ref sig .tc) → Buf (Elt F) ((c : Thread nD τ).loc b)) (c : Dev nD) :
    (iprop(Pipeline.scopedRest (Ix := Unit) (Name := ℕ) (U := UR sig nD τ) (Lvl := ℕ) (Val := Elt F) spec1 c ∗ ∃ r, prngReg c r) : sProp 𝕄) ⊢ (dat1 V c).Φ 0 := by
  have h := hin1 V c
  unfold Pipeline.ΦA at h
  exact h
theorem hout1' (V : (c : Dev nD) → (b : Ref sig .tc) → Buf (Elt F) ((c : Thread nD τ).loc b)) (c : Dev nD) :
    (dat1 V c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := hout1 V c
  unfold Pipeline.ΦA at h
  exact h

set_option backward.isDefEq.respectTransparency.types false in
/-- Region 0 over the thread state: entered from every unscoped buffer at W0, left at W1. Its arrays are split
    out of the unscoped buffers and put back at the exit contents; the generator register goes into the region invariant
    and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its arrays are split
    out of the unscoped buffers and put back at the exit contents; the generator register goes into the region invariant
    and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    iintro ⟨Hp, -, Hr⟩
    iapply (hin1' (V2 m) c)
    isplitl [Hr]; · iexact Hr
    iexact Hp
  hout c := by
    rw [Pipeline.ownSems0_none, show (pdats m 1 c).Φ (Fin.last _) = (dat1 (V2 m) c).Φ (Fin.last cfg1.N) from rfl]
    have hh := hout1' (V2 m) c
    iintro Hphi
    ihave Hsr := hh $$ Hphi
    icases Hsr with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME at any instance: the run, read at the five arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.KernelIdeal.Fr

end
-- ==== Proof.K.R0.lean ====
/-
  Region 0 (the weight fold): at every grid point (o, i) the body reads the weight block [1024,1024], the B block
  [1024,16] and the A block [16,1024] whole, and stores weight + 2·(B·A) whole into the output block. Stated at
  a parameter V (the TensorCore's buffers when the region is entered): each window's block at a point, what the
  body leaves in the output's staging buffer as one piece over the three input blocks, the body's triple, the
  pipeline's proof data and the body obligation at every point.
-/
import proofs.«126282_j75548474736691_2_alg».proof.Proof.Gen.Kernel.Launch
import proofs.«126282_j75548474736691_2_alg».proof.Proof.Gen.Kernel.Skeleton
import proofs.«126282_j75548474736691_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_W : Rect S1024x1024 := Rect.unit (s := S1024x1024) ![0, 0] S1024x1024.size inb_S1024x1024_S1024x1024_0_0
abbrev r0_B : Rect S1024x16 := Rect.unit (s := S1024x16) ![0, 0] S1024x16.size inb_S1024x16_S1024x16_0_0
abbrev r0_A : Rect S16x1024 := Rect.unit (s := S16x1024) ![0, 0] S16x1024.size inb_S16x1024_S16x1024_0_0

/-- The output block after the body, from the weight block x0, the B block x1 and the A block x2: one piece, the
    whole block, holding the payload weight + 2·(B·A). -/
def out0_3 (x0 : Vec F S1024x1024 .f32) (x1 : Vec F S1024x16 .f32) (x2 : Vec F S16x1024 .f32) : Vec F S1024x1024 .bf16 :=
  View.canon [⟨r0_W, k0_pay1 (View.ld x1 r0_B) (View.ld x2 r0_A) (View.ld x0 r0_W)⟩]

/-- The one store covers the block. -/
theorem cover0_3 (p0 : Vec F S1024x1024 .bf16) (y : S1024x1024.Idx) :
    ∃ pc ∈ ([⟨r0_W, p0⟩] : List (View.Piece (Elt F) S1024x1024 .bf16)), y ∈ pc.1.set :=
  View.cover_of_tiled [⟨r0_W, p0⟩] S1024x1024.size (by rfl) y

set_option maxHeartbeats 1000000 in
/-- The body on whole staging memrefs, the inputs' at x0 x1 x2 and the output's at anything, runs to the continuation
    with the inputs as they were and the output's at out0_3 of the inputs. -/
theorem sound_kernel0 (c : Dev nD) (i : grid0.Coords) (E : Set ℕ) (arg2 : Memref sig .tc .vmem S1024x1024 .f32) (harg2 : arg2.IsWhole)
    (arg3 : Memref sig .tc .vmem S1024x16 .f32) (harg3 : arg3.IsWhole) (arg4 : Memref sig .tc .vmem S16x1024 .f32) (harg4 : arg4.IsWhole)
    (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__weff_kernel i arg2 harg2 arg3 harg3 arg4 harg4 arg5 harg5) K := by
  simp only [cc0__weff_kernel_eq_skeleton]; unfold cc0__weff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core c: the arrays as the region finds them; after the body each input's
    buffer at its block, the output's at out0_3 of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c _ Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.K.R1Runs.lean ====
/-
  Region 1 (the K-blocked product): what the three cases of the body share. The body's first conditional holds at
  the first K-block of an output block (grid coordinate k = 0: the accumulator is zeroed), its second at the last
  (k = 15: accumulator plus bias is stored into the output block); in between the accumulator only grows. Here: each
  window's block at a point, the two conditions in closed form over the grid, where the output window is idle, the
  memrefs the body is called with, and the region invariant with the accumulator split off.
-/
import proofs.«126282_j75548474736691_2_alg».proof.Proof.Gen.Kernel.Launch
import proofs.«126282_j75548474736691_2_alg».proof.Proof.Gen.Kernel.Skeleton
import proofs.«126282_j75548474736691_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first conditional's condition, from the grid coordinates: k = 0. -/
abbrev cond1_0 (i : grid1.Coords) : Prop := (Scalar.cmpi .ne (Scalar.extui (Scalar.cmpi .eq (BitVec.ofNat 32 (i 2).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition: k = 15. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second conditional fails the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it holds the output window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S2048x1024 .f32 := (Memref.whole cc1_stg3_0 : Memref sig .tc .vmem S2048x1024 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S2048x1024 .f32 := Memref.whole cc1_scratch0
abbrev VS1_0 : View sig .tc .vmem S2048x1024 .f32 := scM1_0.view

/-- The class invariant's shape with the accumulator's place held by P: the core's other scoped buffers (region 0's
    staging buffers), each whole at some contents and riding through region 1 untouched, then P, beside the generator
    register at some state. -/
def withAcc1 (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P) ∗ (∃ r, prngReg c r))

/-- The class invariant is that shape with the accumulator owned at some contents. -/
theorem PhiA1_eq (c : Dev nD) :
    (Pipeline.ΦA spec1 c : sProp 𝕄) = withAcc1 c iprop(∃ d, owns (c : Thread nD τ) scM1_0 fullShare d) := by
  unfold Pipeline.ΦA withAcc1; rw [scopedRest1_eq]; simp only [scM1_0, owns_whole]; try rfl

end Cert.Kernel.Fr

end
-- ==== Proof.K.R1A.lean ====
/-
  Region 1, the body's run at the first K-block of an output block (k = 0): the accumulator is zeroed, then the block's product is added; nothing is stored into the output block.
  The pieces the accumulator (and, at the last K-block, the output block) ends with are found by the run itself.
-/
import proofs.«126282_j75548474736691_2_alg».proof.Proof.K.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output's staging memref (L3) and in the accumulator (LS0), last first, with
    the proof that on whole memrefs — the inputs' at x0 x1 x2, the idle output's at xi3, handed back untouched, the accumulator's at
    anything — the body runs to the continuation holding the inputs as they were and each stored buffer with its pieces written. -/
noncomputable def kernelRun1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R1B.lean ====
/-
  Region 1, the body's run at a middle K-block (0 < k < 15): the block's product is added to the accumulator the point before left; nothing is stored into the output block.
  The pieces the accumulator (and, at the last K-block, the output block) ends with are found by the run itself.
-/
import proofs.«126282_j75548474736691_2_alg».proof.Proof.K.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output's staging memref (L3) and in the accumulator (LS0), last first, with
    the proof that on whole memrefs — the inputs' at x0 x1 x2, the idle output's at xi3, handed back untouched, the accumulator's at
    xs0 — the body runs to the continuation holding the inputs as they were and each stored buffer with its pieces written. -/
noncomputable def kernelRun1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs0 : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R1C.lean ====
/-
  Region 1, the body's run at the last K-block (k = 15): the block's product is added to the accumulator the point before left, and accumulator plus bias is stored into the output block.
  The pieces the accumulator (and, at the last K-block, the output block) ends with are found by the run itself.
-/
import proofs.«126282_j75548474736691_2_alg».proof.Proof.K.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output's staging memref (L3) and in the accumulator (LS0), last first, with
    the proof that on whole memrefs — the inputs' at x0 x1 x2, the output's at anything, the accumulator's at
    xs0 — the body runs to the continuation holding the inputs as they were and each stored buffer with its pieces written. -/
noncomputable def kernelRun1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.R1Outs.lean ====
/-
  Region 1: what each of the body's three cases leaves in the accumulator and in the output block, read back from the
  pieces its run found, and that those pieces cover the buffer.
-/
import proofs.«126282_j75548474736691_2_alg».proof.Proof.K.R1A
import proofs.«126282_j75548474736691_2_alg».proof.Proof.K.R1B
import proofs.«126282_j75548474736691_2_alg».proof.Proof.K.R1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output's staging buffer: its pieces read back over junk (none: a placeholder nothing consults, the window being idle and not written back at these points). -/
def out1_A_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) : Vec F S2048x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's pieces for the accumulator tile it, so they cover it. -/
theorem scover1_A_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y

/-- What case A leaves in the accumulator: its pieces read back over junk. -/
def sout1_A_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) : Vec F S2048x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output's staging buffer: its pieces read back over junk (none: a placeholder nothing consults, the window being idle and not written back at these points). -/
def out1_B_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs0 : Vec F S2048x1024 .f32) : Vec F S2048x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for the accumulator tile it, so they cover it. -/
theorem scover1_B_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y

/-- What case B leaves in the accumulator: its pieces read back over junk. -/
def sout1_B_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs0 : Vec F S2048x1024 .f32) : Vec F S2048x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At the last K-block the body's pieces for the output block tile it, so they cover it. -/
theorem cover1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y

/-- What case C leaves in the output's staging buffer: its pieces read back over junk. -/
def out1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for the accumulator tile it, so they cover it. -/
theorem scover1_C_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y

/-- What case C leaves in the accumulator: its pieces read back over junk. -/
def sout1_C_0 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) : Vec F S2048x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

end Cert.Kernel.Fr

end
-- ==== Proof.K.R1.lean ====
/-
  Region 1 (the K-blocked product), the rest of its half: what the accumulator and the output block hold after each
  grid point, by recursion on the point (the accumulator restarts at the first K-block of each output block and
  otherwise continues from what the point before left); the region invariant carrying the accumulator at those
  contents; the pipeline's proof data; the body obligation at every point; and that the invariant starts as and
  gives back the class's.
-/
import proofs.«126282_j75548474736691_2_alg».proof.Proof.K.R1Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the output's staging buffer and the accumulator hold after the body at position n: the case the closed
    forms select at n, run at the point's memrefs and input blocks, the accumulator taken from what position n - 1 left. -/
def outsAt1 (c : Dev nD) : (n : ℕ) → n < cfg1.N → Vec F S2048x1024 .f32 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's; afterwards the same shape with the
    accumulator at what the point before left in it. -/
def PhiS1 (c : Dev nD) : (n : ℕ) → n ≤ cfg1.N → sProp 𝕄
  | 0, _ => Pipeline.ΦA spec1 c
  | n + 1, hn => withAcc1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = withAcc1 c (owns (c : Thread nD τ) scM1_0 fullShare ((outsAt1 V c n hn).2)) := rfl

theorem PhiS1_pos (c : Dev nD) (n : ℕ) (h : n ≤ cfg1.N) (hz : n ≠ 0) :
    PhiS1 V c n h = withAcc1 c (owns (c : Thread nD τ) scM1_0 fullShare ((outsAt1 V c (n - 1) (by omega)).2)) := by
  cases n with
  | zero => exact absurd rfl hz
  | succ n => rfl

/-- The proof data of pipeline 1 on core c: the arrays as the region finds them; after the body each input's
    buffer at its block, the output's at outsAt1's first component; the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything before the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]; unfold withAcc1
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]; unfold withAcc1
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]; unfold withAcc1
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]; unfold withAcc1
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold withAcc1
  iintro ⟨⟨Ha0, Ha1, Ha2, Ha3, Ha4, Ha5, Ha6, Ha7, HS0⟩, Hg⟩
  isplitl [Ha0 Ha1 Ha2 Ha3 Ha4 Ha5 Ha6 Ha7 HS0]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    iexists _; iexact HS0
  iexact Hg

end Region1

end Cert.Kernel.Fr

end
-- ==== Proof.K.Run.lean ====
/-
  The whole run of @main: region 0 (the weight fold), three host operations (x as a matrix of 8192 rows, its cast,
  the bias as a row), region 1 (the K-blocked product with the bias added), one host operation (the result back in
  three axes). The buffers' contents at every boundary are a fold from the launch memory: a host stretch applies its
  operations, a region leaves its arrays at what its write-backs leave. Every weakly fair execution terminates with
  every unscoped buffer at the last boundary's contents; in particular the five arguments end as launched.
-/
import proofs.«126282_j75548474736691_2_alg».proof.Proof.K.R0
import proofs.«126282_j75548474736691_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m ((c : Dev nD), b)
/-- The same read at the TensorCore's references: what region 0's proof data take. -/
abbrev V0 : (c : Dev nD) → (b : Ref sig .tc) → Buf (Elt F) ((c : Thread nD τ).loc b) := fun c b => W0 m c b
/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the three host operations between the regions (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host operation: the contents at the return. -/
abbrev W4 : Dev nD → Valuation τ sig (Elt F) := fun c => StableHlo.after hostOps2 (W3 m c)

/-! ## The arguments end as launched -/

/-- main_arg0 reaches the end as launched: no host operation writes it and no region's output is it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W1_of_ne m c main_arg0 (by decide)
    _ = m ((c : Thread nD τ).loc main_arg0) := rfl

/-- main_arg1 reaches the end as launched: no host operation writes it and no region's output is it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 0).trans (((dat0 (V0 m) c).arrAt_in 0 rfl _).trans (A_eq0 (V0 m) c 0))
    _ = m ((c : Thread nD τ).loc main_arg1) := rfl

/-- main_arg2 reaches the end as launched: no host operation writes it and no region's output is it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

/-- main_arg3 reaches the end as launched: no host operation writes it and no region's output is it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := (W1_arr m c 2).trans (((dat0 (V0 m) c).arrAt_in 2 rfl _).trans (A_eq0 (V0 m) c 2))
    _ = m ((c : Thread nD τ).loc main_arg3) := rfl

/-- main_arg4 reaches the end as launched: no host operation writes it and no region's output is it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg4) := W3_of_ne m c main_arg4 (by decide)
    _ = W1 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg4) := (W1_arr m c 1).trans (((dat0 (V0 m) c).arrAt_in 1 rfl _).trans (A_eq0 (V0 m) c 1))
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m c) ∗ ∃ r, prngReg c r)

/-! ## The regions as segments -/

/-- Region 1's invariant starts as, and after the last point gives back, the scoped rest beside the generator register. -/
theorem hin1' (V : (c : Dev nD) → (b : Ref sig .tc) → Buf (Elt F) ((c : Thread nD τ).loc b)) (c : Dev nD) :
    (iprop(Pipeline.scopedRest (Ix := Unit) (Name := ℕ) (U := UR sig nD τ) (Lvl := ℕ) (Val := Elt F) spec1 c ∗ ∃ r, prngReg c r) : sProp 𝕄) ⊢ (dat1 V c).Φ 0 := by
  have h := hin1 V c
  unfold Pipeline.ΦA at h
  exact h
theorem hout1' (V : (c : Dev nD) → (b : Ref sig .tc) → Buf (Elt F) ((c : Thread nD τ).loc b)) (c : Dev nD) :
    (dat1 V c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := hout1 V c
  unfold Pipeline.ΦA at h
  exact h

set_option backward.isDefEq.respectTransparency.types false in
/-- Region 0 over the thread state: entered from every unscoped buffer at W0, left at W1. Its arrays are split
    out of the unscoped buffers and put back at the exit contents; the generator register goes into the region invariant
    and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its arrays are split
    out of the unscoped buffers and put back at the exit contents; the generator register goes into the region invariant
    and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    iintro ⟨Hp, -, Hr⟩
    iapply (hin1' (V2 m) c)
    isplitl [Hr]; · iexact Hr
    iexact Hp
  hout c := by
    rw [Pipeline.ownSems0_none, show (pdats m 1 c).Φ (Fin.last _) = (dat1 (V2 m) c).Φ (Fin.last cfg1.N) from rfl]
    have hh := hout1' (V2 m) c
    iintro Hphi
    ihave Hsr := hh $$ Hphi
    icases Hsr with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME at any instance: the run, read at the five arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.Kernel.Fr

end
-- ==== Proof.Spec.lean ====
/-
  The mathematics of the LoRA linear layer, stated once over literal index types.

  Inputs: x[4,2048,4096], W[4096,4096], bias[4096], A[16,4096], B[4096,16], as extended reals.
  * `refVal` is what the reference computes at (b, s, o):
      (Σ_i x[b,s,i]·W[o,i] + bias[o]) + 2·Σ_r (Σ_i x[b,s,i]·A[r,i])·B[o,r].
  * `weff` is the folded weight  W[o,i] + 2·Σ_r B[o,r]·A[r,i];  `kerVal` is what the kernel computes at row
    m = b·2048 + s and column n: the sixteen partial products over the K-blocks of 256 columns, added one
    after the other, then the bias.
  * `normal` is the common value over the reals when every input is finite:
      Σ_i x[b,s,i]·(W[o,i] + 2·Σ_r B[o,r]·A[r,i]) + bias[o].
  The two programs agree because multiplication distributes over the (finite) sums; on the extended reals
  that law needs finiteness, which is where the precondition is used.
-/
import Idealize.ShloMosaic.PureOps.Ideal
import Idealize.ShloMosaic.Lib.ValueIdx

noncomputable section

namespace Cert.Lora

open Idealize.ShloMosaic Idealize.ShloMosaic.ValueIdx

/-- The scaling literal 2.0 as both programs print it. -/
def two : EReal := Ideal.ofBits .f32 0x40000000#32

abbrev XIdx := (⟨3, ![4, 2048, 4096]⟩ : Shape).Idx
abbrev WIdx := (⟨2, ![4096, 4096]⟩ : Shape).Idx
abbrev BiasIdx := (⟨1, ![4096]⟩ : Shape).Idx
abbrev AIdx := (⟨2, ![16, 4096]⟩ : Shape).Idx
abbrev BIdx := (⟨2, ![4096, 16]⟩ : Shape).Idx

section
variable (x : XIdx → EReal) (W : WIdx → EReal) (bias : BiasIdx → EReal) (A : AIdx → EReal) (B : BIdx → EReal)

/-- The reference at (b, s, o). -/
def refVal (b : Fin 4) (s : Fin 2048) (o : Fin 4096) : EReal :=
  ((∑ i : Fin 4096, x (ix3 b s i) * W (ix2 o i)) + bias (ix1 o))
    + two * ∑ r : Fin 16, (∑ i : Fin 4096, x (ix3 b s i) * A (ix2 r i)) * B (ix2 o r)

/-- The folded weight at (o, i). -/
def weff (o i : Fin 4096) : EReal := W (ix2 o i) + two * ∑ r : Fin 16, B (ix2 o r) * A (ix2 r i)

/-- x read as a matrix of 8192 rows: row m is (m / 2048, m % 2048). -/
def x2 (m : Fin 8192) (i : Fin 4096) : EReal :=
  x (ix3 (⟨m.val / 2048, by omega⟩ : Fin 4) (⟨m.val % 2048, by omega⟩ : Fin 2048) i)

/-- The product of row m of x with row n of the folded weight over K-block k (columns k·256 … k·256+255). -/
def blockDot (m : Fin 8192) (n : Fin 4096) (k : Fin 16) : EReal :=
  ∑ j : Fin 256, x2 x m (⟨k.val * 256 + j.val, by omega⟩ : Fin 4096) * weff W A B n (⟨k.val * 256 + j.val, by omega⟩ : Fin 4096)

/-- The accumulator after K-block k: block 0's product, then each later block's added on the right. -/
def accTo (f : Fin 16 → EReal) : (k : ℕ) → k < 16 → EReal
  | 0, h => f ⟨0, h⟩
  | k + 1, h => accTo f k (Nat.lt_of_succ_lt h) + f ⟨k + 1, h⟩

/-- The kernel at row m, column n: the accumulator after the last K-block, plus the bias. -/
def kerVal (m : Fin 8192) (n : Fin 4096) : EReal :=
  accTo (blockDot x W A B m n) 15 (by decide) + bias (ix1 n)

end

/-- The common value over the reals. -/
def normal (xr : Fin 4 → Fin 2048 → Fin 4096 → ℝ) (Wr : Fin 4096 → Fin 4096 → ℝ) (br : Fin 4096 → ℝ)
    (Ar : Fin 16 → Fin 4096 → ℝ) (Br : Fin 4096 → Fin 16 → ℝ) (b : Fin 4) (s : Fin 2048) (o : Fin 4096) : ℝ :=
  (∑ i : Fin 4096, xr b s i * (Wr o i + 2 * ∑ r : Fin 16, Br o r * Ar r i)) + br o

/-- Every entry of the five inputs is a real number: the real arrays behind them. -/
structure RealInputs (x : XIdx → EReal) (W : WIdx → EReal) (bias : BiasIdx → EReal) (A : AIdx → EReal) (B : BIdx → EReal) where
  xr : Fin 4 → Fin 2048 → Fin 4096 → ℝ
  Wr : Fin 4096 → Fin 4096 → ℝ
  br : Fin 4096 → ℝ
  Ar : Fin 16 → Fin 4096 → ℝ
  Br : Fin 4096 → Fin 16 → ℝ
  hx : ∀ b s i, x (ix3 b s i) = ((xr b s i : ℝ) : EReal)
  hW : ∀ o i, W (ix2 o i) = ((Wr o i : ℝ) : EReal)
  hb : ∀ o, bias (ix1 o) = ((br o : ℝ) : EReal)
  hA : ∀ r i, A (ix2 r i) = ((Ar r i : ℝ) : EReal)
  hB : ∀ o r, B (ix2 o r) = ((Br o r : ℝ) : EReal)

end Cert.Lora

end
-- ==== Proof.PayVal.lean ====
/-
  The arithmetic of the kernel's four stored values, read at one entry, over the extended reals.

  * Region 0 stores  W[p,q] + 2·Σ_r B[p,r]·A[r,q]  (the folded weight of a 1024×1024 tile; the narrowing
    format changes are the identity on extended reals).
  * Region 1 stores, in turn: zero; the accumulator plus  Σ_j x[p,j]·w[q,j]  (the product of a row of x with a
    row of the folded weight over one K-block of 256 columns); the accumulator plus the bias row.
  Each is the printed chain of pointwise operations pushed through the index, and each matrix product into the
  zero accumulator is the sum over its single contracted axis, re-indexed to that axis' coordinate.
-/
import proofs.«126282_j75548474736691_2_alg».proof.Proof.Gen.KernelIdeal.Skeleton
import proofs.«126282_j75548474736691_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.KernelIdeal.Gen

/-! ## The two matrix products into the zero accumulator, at an entry -/

/-- Left operand of the [1024,16]·[16,1024] product at output (p, q), contraction position k: row p. -/
theorem dotBA_lhs0 (i : S1024x1024.Idx) (k : dot_S1024x16_S16x1024_S1024x1024_1_0_0_1_n_n.contr.Idx) :
    (dot_S1024x16_S16x1024_S1024x1024_1_0_0_1_n_n.lhsIdx i k 0).val = (i 0).val := by
  unfold DotDims.lhsIdx
  rw [dif_neg (show ¬(0 : Fin S1024x16.rank) ∈ dot_S1024x16_S16x1024_S1024x1024_1_0_0_1_n_n.lhsBatch by decide),
    dif_pos (show (0 : Fin S1024x16.rank) ∈ dot_S1024x16_S16x1024_S1024x1024_1_0_0_1_n_n.lhsNonContracting by decide)]
  rfl
/-- Right operand of the same product: column q. -/
theorem dotBA_rhs1 (i : S1024x1024.Idx) (k : dot_S1024x16_S16x1024_S1024x1024_1_0_0_1_n_n.contr.Idx) :
    (dot_S1024x16_S16x1024_S1024x1024_1_0_0_1_n_n.rhsIdx i k 1).val = (i 1).val := by
  unfold DotDims.rhsIdx
  rw [dif_neg (show ¬(1 : Fin S16x1024.rank) ∈ dot_S1024x16_S16x1024_S1024x1024_1_0_0_1_n_n.rhsBatch by decide),
    dif_pos (show (1 : Fin S16x1024.rank) ∈ dot_S1024x16_S16x1024_S1024x1024_1_0_0_1_n_n.rhsNonContracting by decide)]
  rfl

/-- The [1024,16]·[16,1024] product into zero at (p, q) is Σ_r a[p,r]·b[r,q]. -/
theorem dotBA_apply (a : FVec Ideal S1024x16 .bf16) (b : FVec Ideal S16x1024 .bf16) (p q : Fin 1024) :
    matmul dot_S1024x16_S16x1024_S1024x1024_1_0_0_1_n_n none a b (constant S1024x1024 .f32 0x00000000#32) (ix2 p q)
      = ∑ r : Fin 16, a (ix2 p r) * b (ix2 r q) := by
  refine (Ideal.matmul_constant_zero_apply dot_S1024x16_S16x1024_S1024x1024_1_0_0_1_n_n none a b (ix2 p q)).trans ?_
  rw [← Equiv.sum_comp (contrEquiv1 dot_S1024x16_S16x1024_S1024x1024_1_0_0_1_n_n 16 rfl rfl).symm]
  refine Finset.sum_congr rfl fun r _ => ?_
  have hk := contrEquiv1_symm_val dot_S1024x16_S16x1024_S1024x1024_1_0_0_1_n_n 16 rfl rfl r
  have el : dot_S1024x16_S16x1024_S1024x1024_1_0_0_1_n_n.lhsIdx (ix2 p q)
      ((contrEquiv1 dot_S1024x16_S16x1024_S1024x1024_1_0_0_1_n_n 16 rfl rfl).symm r) = ix2 p r :=
    funext fun c => Fin.ext (by
      match c with
      | ⟨0, _⟩ => exact dotBA_lhs0 _ _
      | ⟨1, _⟩ => exact (dot_S1024x16_S16x1024_S1024x1024_1_0_0_1_n_n.lhsIdx_val_of_single rfl _ _).trans hk)
  have er : dot_S1024x16_S16x1024_S1024x1024_1_0_0_1_n_n.rhsIdx (ix2 p q)
      ((contrEquiv1 dot_S1024x16_S16x1024_S1024x1024_1_0_0_1_n_n 16 rfl rfl).symm r) = ix2 r q :=
    funext fun c => Fin.ext (by
      match c with
      | ⟨0, _⟩ => exact (dot_S1024x16_S16x1024_S1024x1024_1_0_0_1_n_n.rhsIdx_val_of_single rfl _ _).trans hk
      | ⟨1, _⟩ => exact dotBA_rhs1 _ _)
  rw [el, er]

/-- Left operand of the [2048,256]·[1024,256]ᵀ product at output (p, q): row p. -/
theorem dotXW_lhs0 (i : S2048x1024.Idx) (k : dot_S2048x256_S1024x256_S2048x1024_1_1_0_0_n_n.contr.Idx) :
    (dot_S2048x256_S1024x256_S2048x1024_1_1_0_0_n_n.lhsIdx i k 0).val = (i 0).val := by
  unfold DotDims.lhsIdx
  rw [dif_neg (show ¬(0 : Fin S2048x256.rank) ∈ dot_S2048x256_S1024x256_S2048x1024_1_1_0_0_n_n.lhsBatch by decide),
    dif_pos (show (0 : Fin S2048x256.rank) ∈ dot_S2048x256_S1024x256_S2048x1024_1_1_0_0_n_n.lhsNonContracting by decide)]
  rfl
/-- Right operand of the same product: row q (the right operand is contracted along its columns). -/
theorem dotXW_rhs0 (i : S2048x1024.Idx) (k : dot_S2048x256_S1024x256_S2048x1024_1_1_0_0_n_n.contr.Idx) :
    (dot_S2048x256_S1024x256_S2048x1024_1_1_0_0_n_n.rhsIdx i k 0).val = (i 1).val := by
  unfold DotDims.rhsIdx
  rw [dif_neg (show ¬(0 : Fin S1024x256.rank) ∈ dot_S2048x256_S1024x256_S2048x1024_1_1_0_0_n_n.rhsBatch by decide),
    dif_pos (show (0 : Fin S1024x256.rank) ∈ dot_S2048x256_S1024x256_S2048x1024_1_1_0_0_n_n.rhsNonContracting by decide)]
  rfl

/-- The [2048,256]·[1024,256]ᵀ product into zero at (p, q) is Σ_j a[p,j]·b[q,j]. -/
theorem dotXW_apply (a : FVec Ideal S2048x256 .bf16) (b : FVec Ideal S1024x256 .bf16) (p : Fin 2048) (q : Fin 1024) :
    matmul dot_S2048x256_S1024x256_S2048x1024_1_1_0_0_n_n none a b (constant S2048x1024 .f32 0x00000000#32) (ix2 p q)
      = ∑ j : Fin 256, a (ix2 p j) * b (ix2 q j) := by
  refine (Ideal.matmul_constant_zero_apply dot_S2048x256_S1024x256_S2048x1024_1_1_0_0_n_n none a b (ix2 p q)).trans ?_
  rw [← Equiv.sum_comp (contrEquiv1 dot_S2048x256_S1024x256_S2048x1024_1_1_0_0_n_n 256 rfl rfl).symm]
  refine Finset.sum_congr rfl fun j _ => ?_
  have hk := contrEquiv1_symm_val dot_S2048x256_S1024x256_S2048x1024_1_1_0_0_n_n 256 rfl rfl j
  have el : dot_S2048x256_S1024x256_S2048x1024_1_1_0_0_n_n.lhsIdx (ix2 p q)
      ((contrEquiv1 dot_S2048x256_S1024x256_S2048x1024_1_1_0_0_n_n 256 rfl rfl).symm j) = ix2 p j :=
    funext fun c => Fin.ext (by
      match c with
      | ⟨0, _⟩ => exact dotXW_lhs0 _ _
      | ⟨1, _⟩ => exact (dot_S2048x256_S1024x256_S2048x1024_1_1_0_0_n_n.lhsIdx_val_of_single rfl _ _).trans hk)
  have er : dot_S2048x256_S1024x256_S2048x1024_1_1_0_0_n_n.rhsIdx (ix2 p q)
      ((contrEquiv1 dot_S2048x256_S1024x256_S2048x1024_1_1_0_0_n_n 256 rfl rfl).symm j) = ix2 q j :=
    funext fun c => Fin.ext (by
      match c with
      | ⟨0, _⟩ => exact dotXW_rhs0 _ _
      | ⟨1, _⟩ => exact (dot_S2048x256_S1024x256_S2048x1024_1_1_0_0_n_n.rhsIdx_val_of_single rfl _ _).trans hk)
  rw [el, er]

/-! ## The four stored values at an entry -/

/-- Region 0: the weight tile plus twice the [1024,16]·[16,1024] product. -/
theorem k0_pay1_apply (v0 : Vec Ideal S1024x16 .f32) (v2 : Vec Ideal S16x1024 .f32) (v5 : Vec Ideal S1024x1024 .f32) (p q : Fin 1024) :
    k0_pay1 v0 v2 v5 (ix2 p q) = v5 (ix2 p q) + Cert.Lora.two * ∑ r : Fin 16, v0 (ix2 p r) * v2 (ix2 r q) := by
  unfold k0_pay1
  show (v5 (ix2 p q) : EReal) + Cert.Lora.two *
      (matmul (F := Ideal) dot_S1024x16_S16x1024_S1024x1024_1_0_0_1_n_n none
        (truncf (F := Ideal) .bf16 (v0 : FVec Ideal S1024x16 .f32) bitsLt_bf16_f32)
        (truncf (F := Ideal) .bf16 (v2 : FVec Ideal S16x1024 .f32) bitsLt_bf16_f32)
        (constant (F := Ideal) S1024x1024 .f32 0x00000000#32) (ix2 p q)) = _
  rw [dotBA_apply]
  rfl

/-- Region 1, first K-block: the accumulator is set to zero. -/
theorem k1_pay1_apply (p : Fin 2048) (q : Fin 1024) : k1_pay1 (F := Ideal) (ix2 p q) = 0 := by
  unfold k1_pay1
  show shapeCast S2048x1024 (broadcast S2048x1024 (Scalar.ofBits (F := Ideal) .f32 0x00000000#32)) shapeCasts_S2048x1024_S2048x1024 (ix2 p q) = 0
  rw [shapeCast_self]
  exact Ideal.ofBits_zero_f32

/-- Region 1, every K-block: the accumulator plus the block's product of row p of x with row q of the weight. -/
theorem k1_pay2_apply (v3 : Vec Ideal S2048x1024 .f32) (v4 : Vec Ideal S2048x256 .bf16) (v6 : Vec Ideal S1024x256 .bf16) (p : Fin 2048) (q : Fin 1024) :
    k1_pay2 v3 v4 v6 (ix2 p q) = v3 (ix2 p q) + ∑ j : Fin 256, v4 (ix2 p j) * v6 (ix2 q j) := by
  unfold k1_pay2
  show shapeCast S2048x1024 (addf (F := Ideal) (v3 : FVec Ideal S2048x1024 .f32)
      (matmul (F := Ideal) dot_S2048x256_S1024x256_S2048x1024_1_1_0_0_n_n none
        (shapeCast S2048x256 (v4 : FVec Ideal S2048x256 .bf16) shapeCasts_S2048x256_S2048x256)
        (shapeCast S1024x256 (v6 : FVec Ideal S1024x256 .bf16) shapeCasts_S1024x256_S1024x256)
        (constant (F := Ideal) S2048x1024 .f32 0x00000000#32))) shapeCasts_S2048x1024_S2048x1024 (ix2 p q) = _
  rw [shapeCast_self, shapeCast_self, shapeCast_self]
  show (v3 (ix2 p q) : EReal) + matmul (F := Ideal) dot_S2048x256_S1024x256_S2048x1024_1_1_0_0_n_n none
      (v4 : FVec Ideal S2048x256 .bf16) (v6 : FVec Ideal S1024x256 .bf16) (constant (F := Ideal) S2048x1024 .f32 0x00000000#32) (ix2 p q) = _
  rw [dotXW_apply]

/-- Region 1, last K-block: the accumulator plus the bias row, the same in every row. -/
theorem k1_pay3_apply (v16 : Vec Ideal S2048x1024 .f32) (v17 : Vec Ideal S1x1024 .f32) (p : Fin 2048) (q : Fin 1024) :
    k1_pay3 v16 v17 (ix2 p q) = v16 (ix2 p q) + v17 (ix2 (0 : Fin 1) q) := by
  unfold k1_pay3
  show (v16 (ix2 p q) : EReal) + broadcastTo S2048x1024 (shapeCast S1x1024 (v17 : FVec Ideal S1x1024 .f32) shapeCasts_S1x1024_S1x1024)
      broadcasts_S1x1024_S2048x1024 (ix2 p q) = _
  rw [shapeCast_self, broadcastTo_1b_ab_apply]

end Cert.KernelIdeal.PayVal

end
-- ==== Proof.Val0.lean ====
/-
  Region 0, from blocks to the array: after the sixteen grid points the output array of the weight fold holds,
  at every (o, i), the folded weight  W[o,i] + 2·Σ_r B[o,r]·A[r,i]  of the arrays the region found.
-/
import proofs.«126282_j75548474736691_2_alg».proof.Proof.KI.R0
import proofs.«126282_j75548474736691_2_alg».proof.Proof.Spec
import proofs.«126282_j75548474736691_2_alg».proof.Proof.PayVal
import Idealize.ShloMosaic.Lib.Pipeline.Value

noncomputable section

namespace Cert.KernelIdeal.Val0

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block rectangle, as a constant function. -/
theorem zero_offsets : (![0, 0] : Fin 2 → Nat) = fun _ => 0 := funext fun a => by fin_cases a <;> rfl

/-- The folded weight of the arrays the region found, as one array over the output's indices. -/
def foldedWeight (c : Dev nD) : S4096x4096.Idx → EReal :=
  fun j => Cert.Lora.weff (V c main_arg1) (V c main_arg3) (V c main_arg4) (j 0) (j 1)

/-- The printed index maps, decided over the sixteen points: the weight block moves with the output block, the
    B block with its row block, the A block with its column block, and the output's block indices are below 4. -/
theorem block_index_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every block of the 4 × 4 tiling is some point's. -/
theorem block_index_onto : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- The weight window's block at point t is the weight array at block index × 1024 + the coordinate inside. -/
theorem iblk0_0_apply (c : Dev nD) (t : Fin cfg0.N) (y : S1024x1024.Idx) (k : S4096x4096.Idx)
    (hk0 : (k 0).val = win0_0.index t (0 : Fin 2) * 1024 + (y 0).val)
    (hk1 : (k 1).val = win0_0.index t (1 : Fin 2) * 1024 + (y 1).val) :
    (iblk0 V c 0 t : Vec Ideal S1024x1024 .f32) y = (V c main_arg1 : S4096x4096.Idx → EReal) k := by
  unfold iblk0
  rw [View.read_apply]
  show V c main_arg1 _ = V c main_arg1 _
  congr 1
  funext a
  apply Fin.ext
  match a with
  | ⟨0, _⟩ => show win0_0.index t (0 : Fin 2) * 1024 + 1 * (y 0).val = (k 0).val; omega
  | ⟨1, _⟩ => show win0_0.index t (1 : Fin 2) * 1024 + 1 * (y 1).val = (k 1).val; omega

/-- The B window's block at point t. -/
theorem iblk0_1_apply (c : Dev nD) (t : Fin cfg0.N) (y : S1024x16.Idx) (k : S4096x16.Idx)
    (hk0 : (k 0).val = win0_1.index t (0 : Fin 2) * 1024 + (y 0).val)
    (hk1 : (k 1).val = win0_1.index t (1 : Fin 2) * 16 + (y 1).val) :
    (iblk0 V c 1 t : Vec Ideal S1024x16 .f32) y = (V c main_arg4 : S4096x16.Idx → EReal) k := by
  unfold iblk0
  rw [View.read_apply]
  show V c main_arg4 _ = V c main_arg4 _
  congr 1
  funext a
  apply Fin.ext
  match a with
  | ⟨0, _⟩ => show win0_1.index t (0 : Fin 2) * 1024 + 1 * (y 0).val = (k 0).val; omega
  | ⟨1, _⟩ => show win0_1.index t (1 : Fin 2) * 16 + 1 * (y 1).val = (k 1).val; omega

/-- The A window's block at point t. -/
theorem iblk0_2_apply (c : Dev nD) (t : Fin cfg0.N) (y : S16x1024.Idx) (k : S16x4096.Idx)
    (hk0 : (k 0).val = win0_2.index t (0 : Fin 2) * 16 + (y 0).val)
    (hk1 : (k 1).val = win0_2.index t (1 : Fin 2) * 1024 + (y 1).val) :
    (iblk0 V c 2 t : Vec Ideal S16x1024 .f32) y = (V c main_arg3 : S16x4096.Idx → EReal) k := by
  unfold iblk0
  rw [View.read_apply]
  show V c main_arg3 _ = V c main_arg3 _
  congr 1
  funext a
  apply Fin.ext
  match a with
  | ⟨0, _⟩ => show win0_2.index t (0 : Fin 2) * 16 + 1 * (y 0).val = (k 0).val; omega
  | ⟨1, _⟩ => show win0_2.index t (1 : Fin 2) * 1024 + 1 * (y 1).val = (k 1).val; omega

/-- The stored value at (p, q) of a block, when the three loaded blocks are the arrays' entries in row o and
    column i: the folded weight at (o, i). -/
theorem pay_block (x0 : Vec Ideal S1024x1024 .f32) (x1 : Vec Ideal S1024x16 .f32) (x2 : Vec Ideal S16x1024 .f32)
    (Wa : S4096x4096.Idx → EReal) (Aa : S16x4096.Idx → EReal) (Ba : S4096x16.Idx → EReal)
    (p q : Fin 1024) (o i : Fin 4096)
    (h0 : x0 (ix2 p q) = Wa (ix2 o i))
    (h1 : ∀ r : Fin 16, x1 (ix2 p r) = Ba (ix2 o r))
    (h2 : ∀ r : Fin 16, x2 (ix2 r q) = Aa (ix2 r i)) :
    k0_pay1 x1 x2 x0 (ix2 p q) = Cert.Lora.weff Wa Aa Ba o i := by
  rw [PayVal.k0_pay1_apply, h0]
  unfold Cert.Lora.weff
  simp only [h1, h2]

/-- What point t writes back is block t of the folded weight. -/
theorem flushed_eq_fold (c : Dev nD) (t : Fin cfg0.N) :
    (dat0 V c).flushed 3 t = ((cfg0.win 3).blk t).view.read (Elt Ideal) (foldedWeight V c) := by
  show (cfg0.win 3).cut (grid0.coords t) ((dat0 V c).after 3 t) = _
  rw [after0_3]
  unfold out0_3
  rw [View.canon_unit_zero zero_offsets]
  simp only [View.ld_unit_zero (S := S1024x1024) zero_offsets, View.ld_unit_zero (S := S1024x16) zero_offsets, View.ld_unit_zero (S := S16x1024) zero_offsets]
  obtain ⟨e0, e1, e2, e3, e4, e5, e6, e7⟩ := block_index_facts t
  funext j
  show k0_pay1 (iblk0 V c 1 t) (iblk0 V c 2 t) (iblk0 V c 0 t) ((cfg0.win 3).xinj (grid0.coords t) j)
    = foldedWeight V c (((cfg0.win 3).blk t).view.emb j)
  have hj0 : (j 0).val < 1024 := (j 0).isLt
  have hj1 : (j 1).val < 1024 := (j 1).isLt
  refine (congrArg _ (eq_ix2 (n0 := 1024) (n1 := 1024) ((cfg0.win 3).xinj (grid0.coords t) j))).trans ?_
  refine pay_block _ _ _ (V c main_arg1) (V c main_arg3) (V c main_arg4) _ _
    ((((cfg0.win 3).blk t).view.emb j) 0) ((((cfg0.win 3).blk t).view.emb j) 1) ?_ ?_ ?_
  · refine iblk0_0_apply V c t _ _ ?_ ?_
    · show win0_3.index t (0 : Fin 2) * 1024 + 1 * (j 0).val = win0_0.index t (0 : Fin 2) * 1024 + (j 0).val; omega
    · show win0_3.index t (1 : Fin 2) * 1024 + 1 * (j 1).val = win0_0.index t (1 : Fin 2) * 1024 + (j 1).val; omega
  · intro r
    refine iblk0_1_apply V c t _ _ ?_ ?_
    · show win0_3.index t (0 : Fin 2) * 1024 + 1 * (j 0).val = win0_1.index t (0 : Fin 2) * 1024 + (j 0).val; omega
    · show r.val = win0_1.index t (1 : Fin 2) * 16 + r.val; omega
  · intro r
    refine iblk0_2_apply V c t _ _ ?_ ?_
    · show r.val = win0_2.index t (0 : Fin 2) * 16 + r.val; omega
    · show win0_3.index t (1 : Fin 2) * 1024 + 1 * (j 1).val = win0_2.index t (1 : Fin 2) * 1024 + (j 1).val; omega

/-- An index of the output array is in point t's block iff each coordinate is in the block's range on its axis. -/
theorem mem_block (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- The sixteen blocks tile the array: (o, i) is in the block of the point whose block index is (o / 1024, i / 1024). -/
theorem blocks_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := block_index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the sixteen points is the folded weight. -/
theorem final0_fold (c : Dev nD) : (dat0 V c).arrAt 3 cfg0.N = foldedWeight V c :=
  (dat0 V c).arrAt_eq_of_cover 3 (foldedWeight V c) (fun t _ => flushed_eq_fold V c t) blocks_cover

/-- The same, with the folded weight spelt out index by index. -/
theorem final0 (c : Dev nD) :
    (dat0 V c).arrAt 3 cfg0.N = fun j => Cert.Lora.weff (V c main_arg1) (V c main_arg3) (V c main_arg4) (j 0) (j 1) :=
  final0_fold V c

end Cert.KernelIdeal.Val0

end
-- ==== Proof.Val1Blocks.lean ====
/-
  Region 1 (the K-blocked product): each input window's block at a grid point, read at an index.
  The grid has 4 × 4 × 16 points (i, j, k) in row-major order, so point t has i = t / 64, j = t / 16 % 4,
  k = t % 16. Window 0 (x as 8192 × 4096, blocks of 2048 × 256) is at block (i, k); window 1 (the folded weight,
  4096 × 4096, blocks of 1024 × 256) at block (j, k); window 2 (the bias as 1 × 4096, blocks of 1 × 1024) at block
  (0, j); the output window (8192 × 4096, blocks of 2048 × 1024) at block (i, j). An entry (p, q) of a block at
  block index (u, v) with block sizes (a, b) is entry (u·a + p, v·b + q) of the array.
-/
import proofs.«126282_j75548474736691_2_alg».proof.Proof.KI.R1Runs
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Fr Idealize.ShloMosaic Idealize.ShloMosaic.TcCoe Idealize.ShloMosaic.ValueIdx

variable {F : FTy → Type} [FloatOps F]

/-! ## The printed index maps over the grid -/

theorem idx1_0 : ∀ t : Fin cfg1.N, win1_0.index t (0 : Fin 2) = t.val / 64 ∧ win1_0.index t (1 : Fin 2) = t.val % 16 :=
  (by decide +kernel : ∀ t : Fin grid1.N, win1_0.index t (0 : Fin 2) = t.val / 64 ∧ win1_0.index t (1 : Fin 2) = t.val % 16)

theorem idx1_1 : ∀ t : Fin cfg1.N, win1_1.index t (0 : Fin 2) = t.val / 16 % 4 ∧ win1_1.index t (1 : Fin 2) = t.val % 16 :=
  (by decide +kernel : ∀ t : Fin grid1.N, win1_1.index t (0 : Fin 2) = t.val / 16 % 4 ∧ win1_1.index t (1 : Fin 2) = t.val % 16)

theorem idx1_2 : ∀ t : Fin cfg1.N, win1_2.index t (0 : Fin 2) = 0 ∧ win1_2.index t (1 : Fin 2) = t.val / 16 % 4 :=
  (by decide +kernel : ∀ t : Fin grid1.N, win1_2.index t (0 : Fin 2) = 0 ∧ win1_2.index t (1 : Fin 2) = t.val / 16 % 4)

theorem idx1_3 : ∀ t : Fin cfg1.N, win1_3.index t (0 : Fin 2) = t.val / 64 ∧ win1_3.index t (1 : Fin 2) = t.val / 16 % 4 :=
  (by decide +kernel : ∀ t : Fin grid1.N, win1_3.index t (0 : Fin 2) = t.val / 64 ∧ win1_3.index t (1 : Fin 2) = t.val / 16 % 4)

/-- A point of the grid is below 256. -/
theorem t_lt (t : Fin cfg1.N) : t.val < 256 := by
  have h := t.isLt
  have hN : cfg1.N = 256 := N_1
  omega

section
variable (V : (c : Dev nD) → (b : Ref sig .tc) → Buf (Elt F) ((c : Thread nD τ).loc b))

/-! ## The input blocks at an index -/

/-- Window 0: entry (p, jj) of x's block at point t is x at row (t / 64)·2048 + p, column (t % 16)·256 + jj. -/
theorem iblk1_0_apply (c : Dev nD) (t : Fin cfg1.N) (p : Fin 2048) (jj : Fin 256) :
    iblk1 V c 0 t (ix2 p jj) = V c main_v2 (ix2 (⟨t.val / 64 * 2048 + p.val, by have := t_lt t; omega⟩ : Fin 8192)
      (⟨t.val % 16 * 256 + jj.val, by omega⟩ : Fin 4096)) := by
  obtain ⟨e0, e1⟩ := idx1_0 t
  show V c main_v2 (((cfg1.win 0).blk t).view.emb (ix2 p jj)) = _
  refine congrArg (V c main_v2) ?_
  funext a; apply Fin.ext
  match a with
  | ⟨0, _⟩ => show win1_0.index t (0 : Fin 2) * 2048 + 1 * p.val = t.val / 64 * 2048 + p.val; omega
  | ⟨1, _⟩ => show win1_0.index t (1 : Fin 2) * 256 + 1 * jj.val = t.val % 16 * 256 + jj.val; omega

/-- Window 1: entry (q, jj) of the folded weight's block at point t is the weight at row (t / 16 % 4)·1024 + q,
    column (t % 16)·256 + jj. -/
theorem iblk1_1_apply (c : Dev nD) (t : Fin cfg1.N) (q : Fin 1024) (jj : Fin 256) :
    iblk1 V c 1 t (ix2 q jj) = V c main_v0 (ix2 (⟨t.val / 16 % 4 * 1024 + q.val, by omega⟩ : Fin 4096)
      (⟨t.val % 16 * 256 + jj.val, by omega⟩ : Fin 4096)) := by
  obtain ⟨e0, e1⟩ := idx1_1 t
  show V c main_v0 (((cfg1.win 1).blk t).view.emb (ix2 q jj)) = _
  refine congrArg (V c main_v0) ?_
  funext a; apply Fin.ext
  match a with
  | ⟨0, _⟩ => show win1_1.index t (0 : Fin 2) * 1024 + 1 * q.val = t.val / 16 % 4 * 1024 + q.val; omega
  | ⟨1, _⟩ => show win1_1.index t (1 : Fin 2) * 256 + 1 * jj.val = t.val % 16 * 256 + jj.val; omega

/-- Window 2: entry (0, q) of the bias's block at point t is the bias at column (t / 16 % 4)·1024 + q. -/
theorem iblk1_2_apply (c : Dev nD) (t : Fin cfg1.N) (q : Fin 1024) :
    iblk1 V c 2 t (ix2 (0 : Fin 1) q) = V c main_v3 (ix2 (0 : Fin 1)
      (⟨t.val / 16 % 4 * 1024 + q.val, by omega⟩ : Fin 4096)) := by
  obtain ⟨e0, e1⟩ := idx1_2 t
  show V c main_v3 (((cfg1.win 2).blk t).view.emb (ix2 (0 : Fin 1) q)) = _
  refine congrArg (V c main_v3) ?_
  funext a; apply Fin.ext
  match a with
  | ⟨0, _⟩ => show win1_2.index t (0 : Fin 2) * 1 + 1 * (0 : Fin 1).val = (0 : Fin 1).val; rw [e0]; rfl
  | ⟨1, _⟩ => show win1_2.index t (1 : Fin 2) * 1024 + 1 * q.val = t.val / 16 % 4 * 1024 + q.val; omega

end

end Cert.KernelIdeal.Val1

end
-- ==== Proof.Val1Defs.lean ====
/-
  Region 1 (the K-blocked product): the closed form of its output over the extended reals.
  Entry (m, n) is the sixteen block products of row m of x with row n of the folded weight (one per block of 256
  columns), added one after the other from the left, and then the bias at column n.
-/
import proofs.«126282_j75548474736691_2_alg».proof.Proof.Spec
import Idealize.ShloMosaic.Lib.ValueIdx

noncomputable section

namespace Cert.KernelIdeal.Val1

open Idealize.ShloMosaic Idealize.ShloMosaic.ValueIdx

/-- The product of row m of X with row n of Wf over K-block k (columns k·256 … k·256 + 255). -/
def blockProd (X : (⟨2, ![8192, 4096]⟩ : Shape).Idx → EReal) (Wf : (⟨2, ![4096, 4096]⟩ : Shape).Idx → EReal)
    (m : Fin 8192) (n : Fin 4096) (k : Fin 16) : EReal :=
  ∑ jj : Fin 256, X (ix2 m (⟨k.val * 256 + jj.val, by omega⟩ : Fin 4096)) * Wf (ix2 n (⟨k.val * 256 + jj.val, by omega⟩ : Fin 4096))

/-- The kernel's output at (m, n): the sixteen block products added one after the other, then the bias. -/
def kerOut (X : (⟨2, ![8192, 4096]⟩ : Shape).Idx → EReal) (Wf : (⟨2, ![4096, 4096]⟩ : Shape).Idx → EReal)
    (Bias : (⟨2, ![1, 4096]⟩ : Shape).Idx → EReal) (m : Fin 8192) (n : Fin 4096) : EReal :=
  Cert.Lora.accTo (blockProd X Wf m n) 15 (by decide) + Bias (ix2 (0 : Fin 1) n)

/-- The running sum at its first term. -/
theorem accTo_of_zero (f : Fin 16 → EReal) (k : ℕ) (hk : k < 16) (h : k = 0) : Cert.Lora.accTo f k hk = f ⟨k, hk⟩ := by
  subst h; rfl

/-- The running sum at a later term: the sum up to the term before, plus the term. -/
theorem accTo_of_pos (f : Fin 16 → EReal) (k : ℕ) (hk : k < 16) (h : k ≠ 0) :
    Cert.Lora.accTo f k hk = Cert.Lora.accTo f (k - 1) (by omega) + f ⟨k, hk⟩ := by
  cases k with
  | zero => exact absurd rfl h
  | succ k => rfl

end Cert.KernelIdeal.Val1

end
-- ==== Proof.Val1Pieces.lean ====
/-
  Region 1: what each case of the body leaves in the accumulator and in the output block, as the arithmetic of the
  values it was handed.

  * First K-block: the accumulator is zeroed, read back, and the block's product added: zero-then-product.
  * A middle K-block: the product is added to the accumulator the point before left.
  * Last K-block: the accumulator as in the middle case; the output block gets that accumulator plus the bias row.
  Every store and load goes through a whole buffer, so a store leaves its payload, a load after it reads that
  payload, and a load of an untouched buffer reads the contents it was handed.
-/
import proofs.«126282_j75548474736691_2_alg».proof.Proof.KI.R1Outs
import Idealize.ShloMosaic.Lib.Pipeline.Value
import Idealize.ShloMosaic.Lib.Pipeline.FrameBody
import Idealize.ShloMosaic.Lib.Tactic

set_option maxRecDepth 16384

noncomputable section

namespace Cert.KernelIdeal.Val1

open Idealize.ShloMosaic Idealize.ShloMosaic.TcCoe Idealize.ShloMosaic.Tactic Idealize.SL.Sem
open Cert.KernelIdeal Cert.KernelIdeal.Gen Cert.KernelIdeal.Fr

variable {F : FTy → Type} [FloatOps F]

/-- The zero offsets of a whole-buffer rectangle, as a constant function. -/
theorem hz : (![0, 0] : Fin 2 → Nat) = fun _ => 0 := funext fun a => by fin_cases a <;> rfl

/-- First K-block: the accumulator ends as the product added to the zero block. -/
theorem sout1_A_0_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) :
    sout1_A_0 c i arg3 harg3 arg4 harg4 arg5 harg5 arg6 harg6 arg7 harg7 hc0 hc1 x0 x1 x2 = k1_pay2 (k1_pay1 (F := F)) x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S2048x1024) hz, View.readCov_unit_zero (S := S2048x1024) _ hz]
  simp only [View.readAt_eq_ld, harg3.read_unread, harg4.read_unread,
    View.ld_unit_zero (S := S2048x256) hz, View.ld_unit_zero (S := S1024x256) hz]

/-- A middle K-block: the accumulator ends as the product added to what the point before left. -/
theorem sout1_B_0_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs0 : Vec F S2048x1024 .f32) :
    sout1_B_0 c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  rw [View.canon_unit_zero hz]
  simp only [View.readAt_eq_ld, harg3.read_unread, harg4.read_unread, harg7.read_unread,
    View.ld_unit_zero (S := S2048x1024) hz, View.ld_unit_zero (S := S2048x256) hz, View.ld_unit_zero (S := S1024x256) hz]

/-- Last K-block: the accumulator ends as in a middle block. -/
theorem sout1_C_0_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) :
    sout1_C_0 c i arg3 harg3 arg4 harg4 arg5 harg5 arg6 harg6 arg7 harg7 hc0 hc1 x0 x1 x2 xs0 = k1_pay2 xs0 x0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz]
  simp only [View.readAt_eq_ld, harg3.read_unread, harg4.read_unread, harg7.read_unread,
    View.ld_unit_zero (S := S2048x1024) hz, View.ld_unit_zero (S := S2048x256) hz, View.ld_unit_zero (S := S1024x256) hz]

/-- Last K-block: the output block gets that accumulator plus the bias row. -/
theorem out1_C_3_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs0 : Vec F S2048x1024 .f32) :
    out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz, View.readCov_unit_zero (S := S2048x1024) _ hz]
  simp only [View.readAt_eq_ld, harg3.read_unread, harg4.read_unread, harg5.read_unread, harg7.read_unread,
    View.ld_unit_zero (S := S2048x1024) hz, View.ld_unit_zero (S := S2048x256) hz, View.ld_unit_zero (S := S1024x256) hz,
    View.ld_unit_zero (S := S1x1024) hz]

end Cert.KernelIdeal.Val1

end
-- ==== Proof.Val1.lean ====
/-
  Region 1 (the K-blocked product) at the extended reals: what its output array holds after the run.
  Entry (m, n) of the output is in the block of the grid points (i, j, ·) with i = m / 2048, j = n / 1024. Along
  k = 0 … 15 the accumulator's entry is, after the point (i, j, k), the sum of the first k + 1 block products of row m
  of x with row n of the folded weight, added one after the other (zero plus the first at k = 0, then each next one
  on the right); at k = 15 the output block's entry is that accumulator plus the bias, and that point alone writes the
  block back. The written blocks tile the array, so the array is that value at every entry.
-/
import proofs.«126282_j75548474736691_2_alg».proof.Proof.KI.R1
import proofs.«126282_j75548474736691_2_alg».proof.Proof.Val1Pieces
import proofs.«126282_j75548474736691_2_alg».proof.Proof.Val1Blocks
import proofs.«126282_j75548474736691_2_alg».proof.Proof.Val1Defs
import proofs.«126282_j75548474736691_2_alg».proof.Proof.PayVal
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Fr Cert.KernelIdeal.PayVal
open Idealize.ShloMosaic Idealize.ShloMosaic.TcCoe Idealize.ShloMosaic.ValueIdx
open Idealize.ShloMosaic.Pipeline (Dat)

/-! ## The cases of the body, as arithmetic of the blocks -/

section Cases
variable {F : FTy → Type} [FloatOps F]
variable (V : (c : Dev nD) → (b : Ref sig .tc) → Buf (Elt F) ((c : Thread nD τ).loc b))

/-- First K-block of an output block: the accumulator is zero plus the block's product. -/
theorem acc_A (c : Dev nD) (t : Fin cfg1.N) (h0 : t.val % 16 = 0) (h1 : ¬t.val % 16 = 15) :
    (outsAt1 V c t.val t.isLt).2 = k1_pay2 (k1_pay1 (F := F)) (iblk1 V c 0 t) (iblk1 V c 1 t) := by
  rw [outsAt1_A V c t h0 h1]
  dsimp only
  rw [sout1_A_0_eq]

/-- A middle K-block: the accumulator the point before left, plus the block's product. -/
theorem acc_B (c : Dev nD) (t : Fin cfg1.N) (h0 : ¬t.val % 16 = 0) (h1 : ¬t.val % 16 = 15) :
    (outsAt1 V c t.val t.isLt).2
      = k1_pay2 (outsAt1 V c (t.val - 1) (Nat.lt_of_le_of_lt (Nat.sub_le _ _) t.isLt)).2 (iblk1 V c 0 t) (iblk1 V c 1 t) := by
  rw [outsAt1_B V c t h0 h1]
  dsimp only
  rw [sout1_B_0_eq]

/-- Last K-block: the accumulator as in a middle block. -/
theorem acc_C (c : Dev nD) (t : Fin cfg1.N) (h0 : ¬t.val % 16 = 0) (h1 : t.val % 16 = 15) :
    (outsAt1 V c t.val t.isLt).2
      = k1_pay2 (outsAt1 V c (t.val - 1) (Nat.lt_of_le_of_lt (Nat.sub_le _ _) t.isLt)).2 (iblk1 V c 0 t) (iblk1 V c 1 t) := by
  rw [outsAt1_C V c t h0 h1]
  dsimp only
  rw [sout1_C_0_eq]

/-- Last K-block: the output block is that accumulator plus the bias row. -/
theorem out_C (c : Dev nD) (t : Fin cfg1.N) (h0 : ¬t.val % 16 = 0) (h1 : t.val % 16 = 15) :
    (outsAt1 V c t.val t.isLt).1
      = k1_pay3 (k1_pay2 (outsAt1 V c (t.val - 1) (Nat.lt_of_le_of_lt (Nat.sub_le _ _) t.isLt)).2 (iblk1 V c 0 t) (iblk1 V c 1 t)) (iblk1 V c 2 t) := by
  rw [outsAt1_C V c t h0 h1]
  dsimp only
  rw [out1_C_3_eq]

end Cases

/-! ## At the extended reals: the accumulator along k -/

section AtIdeal
variable (V : (c : Dev nD) → (b : Ref sig .tc) → Buf (Elt Ideal) ((c : Thread nD τ).loc b))

/-- The block's product at point t, entry (p, q), is the block product of the closed form at row
    (t / 64)·2048 + p, column (t / 16 % 4)·1024 + q, K-block t % 16. -/
theorem prod_at (c : Dev nD) (t : Fin cfg1.N) (p : Fin 2048) (q : Fin 1024) (m : Fin 8192) (o : Fin 4096) (k : Fin 16)
    (v4 : Vec Ideal S2048x256 .bf16) (v6 : Vec Ideal S1024x256 .bf16) (h4 : v4 = iblk1 V c 0 t) (h6 : v6 = iblk1 V c 1 t)
    (hm : m.val = t.val / 64 * 2048 + p.val) (ho : o.val = t.val / 16 % 4 * 1024 + q.val) (hk : k.val = t.val % 16) :
    ∑ j : Fin 256, v4 (ix2 p j) * v6 (ix2 q j) = blockProd (V c main_v2) (V c main_v0) m o k := by
  obtain ⟨m, hmlt⟩ := m
  obtain ⟨o, holt⟩ := o
  obtain ⟨k, hklt⟩ := k
  dsimp only at hm ho hk
  subst hm ho hk h4 h6
  simp only [iblk1_0_apply, iblk1_1_apply]
  rfl

/-- THE ACCUMULATOR after point n, at entry (p, q): the running sum, up to K-block n % 16, of the block products of
    row (n / 64)·2048 + p of x with row (n / 16 % 4)·1024 + q of the folded weight. -/
theorem acc_eq (c : Dev nD) : ∀ (n : ℕ) (hn : n < cfg1.N) (p : Fin 2048) (q : Fin 1024) (m : Fin 8192) (o : Fin 4096)
    (k : ℕ) (hk : k < 16), m.val = n / 64 * 2048 + p.val → o.val = n / 16 % 4 * 1024 + q.val → k = n % 16 →
    ((outsAt1 V c n hn).2 (ix2 p q) : EReal) = Cert.Lora.accTo (blockProd (V c main_v2) (V c main_v0) m o) k hk := by
  intro n
  induction n with
  | zero =>
    intro hn p q m o k hk hm ho hk'
    have e := acc_A V c ⟨0, hn⟩ rfl (by dsimp only; omega)
    refine ((congrFun e (ix2 p q)).trans (k1_pay2_apply (k1_pay1 (F := Ideal)) (iblk1 V c 0 ⟨0, hn⟩) (iblk1 V c 1 ⟨0, hn⟩) p q)).trans ?_
    rw [k1_pay1_apply, zero_add, accTo_of_zero _ k hk (by omega)]
    exact prod_at V c ⟨0, hn⟩ p q m o ⟨k, hk⟩ _ _ rfl rfl hm ho hk'
  | succ n ih =>
    intro hn p q m o k hk hm ho hk'
    by_cases h0 : (n + 1) % 16 = 0
    · have e := acc_A V c ⟨n + 1, hn⟩ h0 (by dsimp only; omega)
      refine ((congrFun e (ix2 p q)).trans (k1_pay2_apply (k1_pay1 (F := Ideal)) (iblk1 V c 0 ⟨n + 1, hn⟩) (iblk1 V c 1 ⟨n + 1, hn⟩) p q)).trans ?_
      rw [k1_pay1_apply, zero_add, accTo_of_zero _ k hk (by omega)]
      exact prod_at V c ⟨n + 1, hn⟩ p q m o ⟨k, hk⟩ _ _ rfl rfl hm ho hk'
    · have hN : cfg1.N = 256 := N_1
      have e : (outsAt1 V c (n + 1) hn).2
          = k1_pay2 (outsAt1 V c n (Nat.lt_of_succ_lt hn)).2 (iblk1 V c 0 ⟨n + 1, hn⟩) (iblk1 V c 1 ⟨n + 1, hn⟩) := by
        by_cases h1 : (n + 1) % 16 = 15
        · exact acc_C V c ⟨n + 1, hn⟩ h0 h1
        · exact acc_B V c ⟨n + 1, hn⟩ h0 h1
      refine ((congrFun e (ix2 p q)).trans (k1_pay2_apply (outsAt1 V c n (Nat.lt_of_succ_lt hn)).2 (iblk1 V c 0 ⟨n + 1, hn⟩) (iblk1 V c 1 ⟨n + 1, hn⟩) p q)).trans ?_
      rw [accTo_of_pos _ k hk (by omega)]
      exact congrArg₂ (· + ·) (ih (Nat.lt_of_succ_lt hn) p q m o (k - 1) (by omega) (by omega) (by omega) (by omega))
        (prod_at V c ⟨n + 1, hn⟩ p q m o ⟨k, hk⟩ _ _ rfl rfl hm ho hk')

/-! ## The output block at a write-back point -/

/-- THE OUTPUT BLOCK at a point of the last K-block (t % 16 = 15), entry (p, q): the closed form at row
    (t / 64)·2048 + p, column (t / 16 % 4)·1024 + q — the accumulator the point before left (the running sum up to
    K-block 14), plus this block's product, plus the bias. -/
theorem out_eq (c : Dev nD) (t : Fin cfg1.N) (h1 : t.val % 16 = 15) (p : Fin 2048) (q : Fin 1024) (m : Fin 8192) (o : Fin 4096)
    (hm : m.val = t.val / 64 * 2048 + p.val) (ho : o.val = t.val / 16 % 4 * 1024 + q.val) :
    ((outsAt1 V c t.val t.isLt).1 (ix2 p q) : EReal) = kerOut (V c main_v2) (V c main_v0) (V c main_v3) m o := by
  have ht := t_lt t
  have h0 : ¬t.val % 16 = 0 := by omega
  have e := out_C V c t h0 h1
  refine ((congrFun e (ix2 p q)).trans (k1_pay3_apply
    (k1_pay2 (outsAt1 V c (t.val - 1) (Nat.lt_of_le_of_lt (Nat.sub_le _ _) t.isLt)).2 (iblk1 V c 0 t) (iblk1 V c 1 t))
    (iblk1 V c 2 t) p q)).trans ?_
  rw [k1_pay2_apply (outsAt1 V c (t.val - 1) (Nat.lt_of_le_of_lt (Nat.sub_le _ _) t.isLt)).2 (iblk1 V c 0 t) (iblk1 V c 1 t) p q]
  unfold kerOut
  rw [accTo_of_pos _ 15 (by decide) (by decide)]
  refine congrArg₂ (· + ·) (congrArg₂ (· + ·)
    (acc_eq V c (t.val - 1) (Nat.lt_of_le_of_lt (Nat.sub_le _ _) t.isLt) p q m o 14 (by decide) (by omega) (by omega) (by omega))
    (prod_at V c t p q m o ⟨15, by decide⟩ _ _ rfl rfl hm ho h1.symm)) ?_
  rw [iblk1_2_apply]
  exact congrArg (fun z => V c main_v3 (ix2 (0 : Fin 1) z)) (Fin.ext ho.symm)

end AtIdeal

end Cert.KernelIdeal.Val1

end
-- ==== Proof.Val1Final.lean ====
/-
  Region 1, from blocks to the array: after the 256 grid points the output array of the K-blocked product holds,
  at every (m, n), the sixteen block products of row m of x with row n of the folded weight added one after the
  other, plus the bias at column n. The output block (i, j) is written back once, at the last of its sixteen
  K-steps; those sixteen write-backs tile the array.
-/
import proofs.«126282_j75548474736691_2_alg».proof.Proof.KI.R1
import proofs.«126282_j75548474736691_2_alg».proof.Proof.Val1Blocks
import proofs.«126282_j75548474736691_2_alg».proof.Proof.Val1Defs
import proofs.«126282_j75548474736691_2_alg».proof.Proof.Val1
import Idealize.ShloMosaic.Lib.Pipeline.Value

set_option maxRecDepth 16384

noncomputable section

namespace Cert.KernelIdeal.Val1

open Cert.KernelIdeal Cert.KernelIdeal.Gen Cert.KernelIdeal.Fr Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The closed form of region 1's output as one array over the output's indices. -/
def outArr (c : Dev nD) : S8192x4096.Idx → EReal :=
  fun j => kerOut (V c main_v2) (V c main_v0) (V c main_v3) (j 0) (j 1)

/-- What a writing point t (the last K-step of its output block) writes back is block t of the closed form. -/
theorem flushed1_eq (c : Dev nD) (t : Fin cfg1.N) (hf : (cfg1.win 3).flush t = true) :
    (dat1 V c).flushed 3 t = ((cfg1.win 3).blk t).view.read (Elt Ideal) (outArr V c) := by
  have h1 : t.val % 16 = 15 := (flush1_3 t).mp hf
  show (cfg1.win 3).cut (grid1.coords t) ((dat1 V c).after 3 t) = _
  rw [after1_3]
  obtain ⟨e0, e1⟩ := idx1_3 t
  funext j
  show (outsAt1 V c t.val t.isLt).1 ((cfg1.win 3).xinj (grid1.coords t) j)
    = outArr V c (((cfg1.win 3).blk t).view.emb j)
  refine (congrArg _ (eq_ix2 (n0 := 2048) (n1 := 1024) ((cfg1.win 3).xinj (grid1.coords t) j))).trans ?_
  refine out_eq V c t h1 _ _ ((((cfg1.win 3).blk t).view.emb j) 0) ((((cfg1.win 3).blk t).view.emb j) 1) ?_ ?_
  · show win1_3.index t (0 : Fin 2) * 2048 + 1 * (j 0).val = t.val / 64 * 2048 + (j 0).val; omega
  · show win1_3.index t (1 : Fin 2) * 1024 + 1 * (j 1).val = t.val / 16 % 4 * 1024 + (j 1).val; omega

/-- An index of the output array is in point t's block iff each coordinate is in the block's range on its axis. -/
theorem mem_block1 (t : Fin cfg1.N) (i : S8192x4096.Idx) :
    i ∈ ((cfg1.win 3).blk t).view.set ↔ ∀ a : Fin 2, win1_3.index t a * S2048x1024.size a ≤ (i a).val
      ∧ (i a).val < win1_3.index t a * S2048x1024.size a + S2048x1024.size a := by
  show i ∈ ((View.whole main_v4).slice (win1_3.rect t)).set ↔ _
  rw [View.set_slice_whole, Rect.mem_set_unit]
  exact Iff.rfl

/-- The sixteen written blocks tile the array: (m, n) is in the block written at the last K-step of
    block (m / 2048, n / 1024), the point ((m / 2048)·4 + n / 1024)·16 + 15. -/
theorem blocks_cover1 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 256 := N_1
  let t : Fin cfg1.N := ⟨((i 0).val / 2048 * 4 + (i 1).val / 1024) * 16 + 15, by omega⟩
  have ht : t.val = ((i 0).val / 2048 * 4 + (i 1).val / 1024) * 16 + 15 := rfl
  obtain ⟨e0, e1⟩ := idx1_3 t
  refine ⟨t, (flush1_3 t).mpr (by omega), ?_⟩
  rw [mem_block1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

/-- The output array after the 256 points is the closed form. -/
theorem final1_arr (c : Dev nD) : (dat1 V c).arrAt 3 cfg1.N = outArr V c :=
  (dat1 V c).arrAt_eq_of_cover 3 (outArr V c) (fun t hf => flushed1_eq V c t hf) blocks_cover1

/-- The same, with the closed form spelt out index by index. -/
theorem final1 (c : Dev nD) :
    (dat1 V c).arrAt 3 cfg1.N = fun j => kerOut (V c main_v2) (V c main_v0) (V c main_v3) (j 0) (j 1) :=
  final1_arr V c

end Cert.KernelIdeal.Val1

end
-- ==== Proof.HostVal.lean ====
/-
  The host's three reshapes, read at one entry.

  * x[4,2048,4096] viewed as 8192 rows: row m is (m / 2048, m % 2048).
  * bias[4096] viewed as one row [1,4096].
  * the result [8192,4096] viewed back as [4,2048,4096]: entry (b, s, o) is row b·2048 + s, column o.
  A reshape keeps the row-major position, so each is an identity between two row-major positions.
-/
import proofs.«126282_j75548474736691_2_alg».proof.Proof.Gen.KernelIdeal.Skeleton
import proofs.«126282_j75548474736691_2_alg».proof.Proof.Gen.KernelIdeal.Launch
import proofs.«126282_j75548474736691_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.KernelIdeal.Gen

/-- x as a matrix of 8192 rows: row m, column i is x at (m / 2048, m % 2048, i). -/
theorem reshape_x_apply (x : FVec Ideal S4x2048x4096 .f32) (m : Fin 8192) (i : Fin 4096) :
    shapeCast S8192x4096 x shapeCasts_S4x2048x4096_S8192x4096 (ix2 m i)
      = x (ix3 (⟨m.val / 2048, by omega⟩ : Fin 4) (⟨m.val % 2048, by omega⟩ : Fin 2048) i) :=
  shapeCast_apply x shapeCasts_S4x2048x4096_S8192x4096 _ _ (by
    rw [Shape.rowMajor_val_three, Shape.rowMajor_val_two]
    show (m.val / 2048 * 2048 + m.val % 2048) * 4096 + i.val = m.val * 4096 + i.val
    omega)

/-- The bias as one row: entry (0, n) is bias at n. -/
theorem reshape_bias_apply (b : FVec Ideal S4096 .f32) (n : Fin 4096) :
    shapeCast S1x4096 b shapeCasts_S4096_S1x4096 (ix2 (0 : Fin 1) n) = b (ix1 n) :=
  shapeCast_a_1a_apply b shapeCasts_S4096_S1x4096 (0 : Fin 1) n

/-- The result viewed back in three axes: entry (b, s, o) is row b·2048 + s, column o. -/
theorem reshape_out_apply (y : FVec Ideal S8192x4096 .f32) (b : Fin 4) (s : Fin 2048) (o : Fin 4096) :
    shapeCast S4x2048x4096 y shapeCasts_S8192x4096_S4x2048x4096 (ix3 b s o)
      = y (ix2 (⟨b.val * 2048 + s.val, by omega⟩ : Fin 8192) o) :=
  shapeCast_apply y shapeCasts_S8192x4096_S4x2048x4096 _ _ (by
    rw [Shape.rowMajor_val_three, Shape.rowMajor_val_two]
    show (b.val * 2048 + s.val) * 4096 + o.val = (b.val * 2048 + s.val) * 4096 + o.val
    rfl)

end Cert.KernelIdeal.PayVal

end
-- ==== Proof.KernelValue.lean ====
/-
  The kernel's result, entry by entry: the buffers' contents at the boundaries of the run, read through the host's
  reshapes and the two regions' final arrays, are the sixteen K-block products of x (as 8192 rows) with the folded
  weight, added in order, plus the bias.
-/
import proofs.«126282_j75548474736691_2_alg».proof.Proof.KI.Run
import proofs.«126282_j75548474736691_2_alg».proof.Proof.Val0
import proofs.«126282_j75548474736691_2_alg».proof.Proof.Val1Final
import proofs.«126282_j75548474736691_2_alg».proof.Proof.HostVal
import proofs.«126282_j75548474736691_2_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.KVal

open Cert.KernelIdeal Cert.KernelIdeal.Gen Cert.KernelIdeal.Fr Idealize.ShloMosaic Idealize.ShloMosaic.ValueIdx
open Idealize.ShloMosaic.TcCoe Idealize.SL.Sem Idealize.ShloMosaic.StableHlo
open Idealize.ShloMosaic.Pipeline (Dat)

variable (m : (ℓ : Loc nD τ sig) → Buf (Elt Ideal) ℓ)

/-! ## The contents at the boundaries, one buffer at a time -/

/-- No operation of the first host stretch writes the folded weight's array. -/
theorem hostOps1_keeps_v0 (c : Dev nD) : W2 m c (Proc.devRef .tc main_v0) = W1 m c (Proc.devRef .tc main_v0) :=
  StableHlo.after_of_forall_not_mem (b := Proc.devRef .tc main_v0) _ _ (List.forall_iff_forall_mem.mp (by
    simp only [hostOps1, List.Forall, StableHlo.unary_writes, StableHlo.reshape_writes, Finset.mem_singleton]
    repeat' apply And.intro
    all_goals exact StableHlo.devRef_ne_of_ne (by decide)))

/-- Region 1 finds x as 8192 rows, narrowed. -/
theorem V2_main_v2 (c : Dev nD) :
    V2 m c main_v2 = truncf (F := Ideal) .bf16 (shapeCast S8192x4096 (m ((c : Thread nD τ).loc main_arg0) : FVec Ideal S4x2048x4096 .f32)
      shapeCasts_S4x2048x4096_S8192x4096) bitsLt_bf16_f32 := by
  show StableHlo.after hostOps1 (W1 m c) (Proc.devRef .tc main_v2) = _
  after_results
  rw [W1_of_ne m c main_arg0 (by decide)]
  rfl

/-- Region 1 finds the bias as one row. -/
theorem V2_main_v3 (c : Dev nD) :
    V2 m c main_v3 = shapeCast S1x4096 (m ((c : Thread nD τ).loc main_arg2) : FVec Ideal S4096 .f32) shapeCasts_S4096_S1x4096 := by
  show StableHlo.after hostOps1 (W1 m c) (Proc.devRef .tc main_v3) = _
  after_results
  rw [W1_of_ne m c main_arg2 (by decide)]
  rfl

/-- Region 1 finds the folded weight as region 0 left it. -/
theorem V2_main_v0 (c : Dev nD) : V2 m c main_v0 = (dat0 (V0 m) c).arrAt 3 cfg0.N :=
  (hostOps1_keeps_v0 m c).trans (W1_arr m c 3)

/-- The returned array is region 1's output viewed back in three axes. -/
theorem W4_main_v5 (c : Dev nD) :
    W4 m c (Proc.devRef .tc main_v5) = shapeCast S4x2048x4096 ((dat1 (V2 m) c).arrAt 3 cfg1.N : FVec Ideal S8192x4096 .f32)
      shapeCasts_S8192x4096_S4x2048x4096 := by
  show StableHlo.after hostOps2 (W3 m c) (Proc.devRef .tc main_v5) = _
  after_results
  rw [W3_arr m c 3]
  rfl

/-! ## The kernel's value -/

/-- The ordered sum of the K-block terms depends only on the terms. -/
theorem accTo_congr {f g : Fin 16 → EReal} (h : ∀ k, f k = g k) (n : ℕ) (hn : n < 16) :
    Cert.Lora.accTo f n hn = Cert.Lora.accTo g n hn := by
  obtain rfl : f = g := funext h
  rfl

/-- What region 1 finds as x, at row r and column i, is x as a matrix of 8192 rows. -/
theorem x_entry (c : Dev nD) (r : Fin 8192) (i : Fin 4096) :
    V2 m c main_v2 (ix2 r i) = Cert.Lora.x2 (m ((c : Thread nD τ).loc main_arg0)) r i := by
  rw [V2_main_v2]
  show shapeCast S8192x4096 (m ((c : Thread nD τ).loc main_arg0) : FVec Ideal S4x2048x4096 .f32) shapeCasts_S4x2048x4096_S8192x4096 (ix2 r i) = _
  exact PayVal.reshape_x_apply _ r i

/-- What region 1 finds as the weight, at (n, i), is the folded weight of the launch arrays. -/
theorem w_entry (c : Dev nD) (n i : Fin 4096) :
    V2 m c main_v0 (ix2 n i)
      = Cert.Lora.weff (m ((c : Thread nD τ).loc main_arg1)) (m ((c : Thread nD τ).loc main_arg3)) (m ((c : Thread nD τ).loc main_arg4)) n i := by
  rw [V2_main_v0, Val0.final0 (V0 m) c]
  rfl

/-- What region 1 finds as the bias row, at column n, is the bias. -/
theorem bias_entry (c : Dev nD) (n : Fin 4096) :
    V2 m c main_v3 (ix2 (0 : Fin 1) n) = m ((c : Thread nD τ).loc main_arg2) (ix1 n) := by
  rw [V2_main_v3]
  exact PayVal.reshape_bias_apply _ n

/-- Region 1's output at row r, column n is the kernel's value there. -/
theorem kerOut_eq (c : Dev nD) (r : Fin 8192) (n : Fin 4096) :
    Val1.kerOut (V2 m c main_v2) (V2 m c main_v0) (V2 m c main_v3) r n
      = Cert.Lora.kerVal (m ((c : Thread nD τ).loc main_arg0)) (m ((c : Thread nD τ).loc main_arg1)) (m ((c : Thread nD τ).loc main_arg2))
          (m ((c : Thread nD τ).loc main_arg3)) (m ((c : Thread nD τ).loc main_arg4)) r n := by
  unfold Val1.kerOut Cert.Lora.kerVal
  refine congrArg₂ (· + ·) (accTo_congr (fun k => ?_) 15 _) (bias_entry m c n)
  unfold Val1.blockProd Cert.Lora.blockDot
  exact Finset.sum_congr rfl fun jj _ => congrArg₂ (· * ·) (x_entry m c r _) (w_entry m c n _)

/-- THE KERNEL'S VALUE: the returned array at (b, s, o) is the kernel's value at row b·2048 + s, column o. -/
theorem kernel_value (c : Dev nD) :
    W4 m c (Proc.devRef .tc main_v5) = fun j => Cert.Lora.kerVal (m ((c : Thread nD τ).loc main_arg0)) (m ((c : Thread nD τ).loc main_arg1))
      (m ((c : Thread nD τ).loc main_arg2)) (m ((c : Thread nD τ).loc main_arg3)) (m ((c : Thread nD τ).loc main_arg4))
      (⟨(j 0).val * 2048 + (j 1).val, by have h0 : (j 0).val < 4 := (j 0).isLt; have h1 : (j 1).val < 2048 := (j 1).isLt; omega⟩ : Fin 8192) (j 2) := by
  rw [W4_main_v5]
  funext j
  obtain ⟨b, s, o, rfl⟩ : ∃ (b : Fin 4) (s : Fin 2048) (o : Fin 4096), j = ix3 b s o := ⟨j 0, j 1, j 2, eq_ix3 j⟩
  refine (PayVal.reshape_out_apply _ b s o).trans ?_
  rw [Val1.final1 (V2 m) c]
  exact kerOut_eq m c _ o

end Cert.KernelIdeal.KVal

end
-- ==== Proof.RefValue.lean ====
/-
  The reference program's result, read index by index, is the closed form `Cert.Lora.refVal`:
  at (b, s, o) the reference holds
      (Σ_i x[b,s,i]·W[o,i] + bias[o]) + 2·Σ_r (Σ_i x[b,s,i]·A[r,i])·B[o,r],
  each product and each sum in the order the program writes them. The three contractions are read through
  the generated stage lemmas; what is proved here is that the index functions those lemmas print are the
  coordinate constructors of the specification, and that the two broadcasts (the bias along the last axis,
  the scalar 2 to every position) read the entries the closed form names.
-/
import proofs.«126282_j75548474736691_2_alg».proof.Defs
import proofs.«126282_j75548474736691_2_alg».proof.Proof.Gen.ReferenceIdeal.Read
import proofs.«126282_j75548474736691_2_alg».proof.Proof.Gen.Pre_finite_inputs
import proofs.«126282_j75548474736691_2_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-! ## The printed index functions are the coordinate constructors -/

theorem lidx_v0 (b : Fin 4) (s : Fin 2048) (o k : Fin 4096) : lidx_main_v0 (ix3 b s o) k = ix3 b s k :=
  funext fun a => Fin.ext (by match a with | ⟨0, _⟩ => rfl | ⟨1, _⟩ => rfl | ⟨2, _⟩ => rfl)

theorem ridx_v0 (b : Fin 4) (s : Fin 2048) (o k : Fin 4096) : ridx_main_v0 (ix3 b s o) k = ix2 o k :=
  funext fun a => Fin.ext (by match a with | ⟨0, _⟩ => rfl | ⟨1, _⟩ => rfl)

theorem idx_v1v2 (b : Fin 4) (s : Fin 2048) (o : Fin 4096) : idx_main_v1 (idx_main_v2 (ix3 b s o)) = ix1 o :=
  funext fun a => Fin.ext (by match a with | ⟨0, _⟩ => rfl)

theorem lidx_v5 (b : Fin 4) (s : Fin 2048) (o : Fin 4096) (r : Fin 16) : lidx_main_v5 (ix3 b s o) r = ix3 b s r :=
  funext fun a => Fin.ext (by match a with | ⟨0, _⟩ => rfl | ⟨1, _⟩ => rfl | ⟨2, _⟩ => rfl)

theorem ridx_v5 (b : Fin 4) (s : Fin 2048) (o : Fin 4096) (r : Fin 16) : ridx_main_v5 (ix3 b s o) r = ix2 o r :=
  funext fun a => Fin.ext (by match a with | ⟨0, _⟩ => rfl | ⟨1, _⟩ => rfl)

theorem lidx_v4 (b : Fin 4) (s : Fin 2048) (r : Fin 16) (k : Fin 4096) : lidx_main_v4 (ix3 b s r) k = ix3 b s k :=
  funext fun a => Fin.ext (by match a with | ⟨0, _⟩ => rfl | ⟨1, _⟩ => rfl | ⟨2, _⟩ => rfl)

theorem ridx_v4 (b : Fin 4) (s : Fin 2048) (r : Fin 16) (k : Fin 4096) : ridx_main_v4 (ix3 b s r) k = ix2 r k :=
  funext fun a => Fin.ext (by match a with | ⟨0, _⟩ => rfl | ⟨1, _⟩ => rfl)

/-! ## The last stage is the closed form -/

/-- The last stage of the reference, at (b, s, o), is `refVal` there. -/
theorem val_eq (x : FVec Ideal S4x2048x4096 .f32) (W : FVec Ideal S4096x4096 .f32) (bias : FVec Ideal S4096 .f32)
    (A : FVec Ideal S16x4096 .f32) (B : FVec Ideal S4096x16 .f32) :
    val_main_v8 (F := Ideal) x W bias A B = fun j => Cert.Lora.refVal x W bias A B (j 0) (j 1) (j 2) := by
  funext j
  obtain ⟨b, s, o, rfl⟩ : ∃ (b : Fin 4) (s : Fin 2048) (o : Fin 4096), j = ix3 b s o := ⟨j 0, j 1, j 2, eq_ix3 j⟩
  rw [val_main_v8_apply, val_main_v3_apply, val_main_v0_apply, val_main_v2_apply, val_main_v1_apply,
    val_main_v7_apply, val_main_v6_apply, val_main_cst_apply, val_main_v5_apply]
  simp only [val_main_v4_apply, lidx_v0, ridx_v0, idx_v1v2, lidx_v5, ridx_v5, lidx_v4, ridx_v4,
    Ideal.addf_def, Ideal.mulf_def, Ideal.ofBits_def]
  rfl

/-- The term the reference's run leaves in its result buffer is `refVal`, index by index. -/
theorem result_eq (x : FVec Ideal S4x2048x4096 .f32) (W : FVec Ideal S4096x4096 .f32) (bias : FVec Ideal S4096 .f32)
    (A : FVec Ideal S16x4096 .f32) (B : FVec Ideal S4096x16 .f32) :
    addf (addf (Host.dotGeneral (F := Ideal) dot_S4x2048x4096_S4096x4096_S4x2048x4096_2_1_01_0_n_n none x W)
        (broadcastInDim S4x2048x4096 ![0, 1, 2] bcast_S1x1x4096_S4x2048x4096_0_1_2
          (broadcastInDim S1x1x4096 ![2] bcast_S4096_S1x1x4096_2 bias)))
      (mulf (broadcastInDim S4x2048x4096 ![] bcast_S_S4x2048x4096 (constant (F := Ideal) S_ .f32 0x40000000#32))
        (Host.dotGeneral (F := Ideal) dot_S4x2048x16_S4096x16_S4x2048x4096_2_1_01_0_n_n none
          (Host.dotGeneral (F := Ideal) dot_S4x2048x4096_S16x4096_S4x2048x16_2_1_01_0_n_n none x A) B))
      = fun j => Cert.Lora.refVal x W bias A B (j 0) (j 1) (j 2) :=
  (val_main_v8_eq (F := Ideal) x W bias A B).trans (val_eq x W bias A B)

/-! ## The reference runs and leaves its arguments as they were -/

theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.ReferenceIdeal.RefValue

end
-- ==== Proof.Finite.lean ====
/-
  From the precondition to real inputs. The precondition is the conjunction of five tests "every entry of the
  array has absolute value below +∞", one per input. On the extended reals |v| < +∞ fails at both infinities
  (|+∞| = |−∞| = +∞), so every entry of every input is a real number; choosing those reals entry by entry gives
  the five real arrays behind the inputs.
-/
import proofs.«126282_j75548474736691_2_alg».proof.Defs
import proofs.«126282_j75548474736691_2_alg».proof.Proof.Gen.Pre_finite_inputs
import proofs.«126282_j75548474736691_2_alg».proof.Proof.Spec
import Idealize.ShloMosaic.Lib.ReduceAll

noncomputable section

namespace Cert.Lora.Finite

open Idealize.ShloMosaic Idealize.ShloMosaic.TcCoe Idealize.SL.Sem Idealize.ShloMosaic.ValueIdx

/-- The rank-0 shape has one index. -/
instance : Subsingleton Cert.Pre_finite_inputs.S_.Idx := ⟨fun a b => funext fun d => d.elim0⟩

/-- An extended real whose absolute value max(v, −v) compares below the pattern of +∞ is a real number. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- One conjunct of the precondition, for an array of any shape: if the conjunction over all entries of
    "|a i| < +∞" is 1 then every entry of a is a real number. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi (cmpf .olt (Host.absf a)
        (broadcastInDim s ![] hb (constant (F := Ideal) Cert.Pre_finite_inputs.S_ .f32 0x7F800000#32))) init hr hu ix0 = 1#1)
    (i : s.Idx) : ∃ r : ℝ, a i = (r : EReal) :=
  real_of_abs_lt_inf (a i) (Host.reduce_andi_all _ init hr hu ix0 e i)

/-- Under the precondition the five inputs are arrays of real numbers. -/
theorem realInputs_of_pre [hPre_finite_inputs : Cert.Pre_finite_inputs.Facts]
    (x : FVec Ideal Cert.Pre_finite_inputs.S4x2048x4096 .f32) (W : FVec Ideal Cert.Pre_finite_inputs.S4096x4096 .f32)
    (bias : FVec Ideal Cert.Pre_finite_inputs.S4096 .f32) (A : FVec Ideal Cert.Pre_finite_inputs.S16x4096 .f32)
    (B : FVec Ideal Cert.Pre_finite_inputs.S4096x16 .f32)
    (h : Cert.Pre_finite_inputs.fn (F := Ideal) x W bias A B = (fun _ => 1#1)) :
    Nonempty (Cert.Lora.RealInputs x W bias A B) := by
  have h0 := congrFun h ix0
  dsimp only [Cert.Pre_finite_inputs.fn, Cert.Pre_finite_inputs.fn_part1] at h0
  obtain ⟨h1234, hB⟩ := IntOp.andi_eq_one.1 h0
  obtain ⟨h123, hA⟩ := IntOp.andi_eq_one.1 h1234
  obtain ⟨h12, hb⟩ := IntOp.andi_eq_one.1 h123
  obtain ⟨hx, hW⟩ := IntOp.andi_eq_one.1 h12
  have rx := all_real x _ _ _ _ hx
  have rW := all_real W _ _ _ _ hW
  have rb := all_real bias _ _ _ _ hb
  have rA := all_real A _ _ _ _ hA
  have rB := all_real B _ _ _ _ hB
  choose xr hxr using fun (b : Fin 4) (s : Fin 2048) (i : Fin 4096) => rx (ix3 b s i)
  choose Wr hWr using fun (o i : Fin 4096) => rW (ix2 o i)
  choose br hbr using fun (o : Fin 4096) => rb (ix1 o)
  choose Ar hAr using fun (r : Fin 16) (i : Fin 4096) => rA (ix2 r i)
  choose Br hBr using fun (o : Fin 4096) (r : Fin 16) => rB (ix2 o r)
  exact ⟨⟨xr, Wr, br, Ar, Br, hxr, hWr, hbr, hAr, hBr⟩⟩

/-- The same for the idealized kernel's launch memory: on every device its five argument arrays are real. -/
theorem realInputs_of_Pre_KernelIdeal [hPre_finite_inputs : Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    Nonempty (Cert.Lora.RealInputs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))) :=
  realInputs_of_pre _ _ _ _ _ (hm c)

end Cert.Lora.Finite

end
-- ==== Proof.Algebra.lean ====
/-
  The algebra of the LoRA linear layer: when every input entry is a real number, the reference's value and the
  kernel's value are both the coercion of one real number, `normal`.
-/
import proofs.«126282_j75548474736691_2_alg».proof.Proof.Spec

noncomputable section

namespace Cert.Lora

open Idealize.ShloMosaic Idealize.ShloMosaic.ValueIdx

/-- The bit pattern 0x40000000 denotes the real number 2. -/
theorem two_eq : two = ((2 : ℝ) : EReal) := by
  simp [two, Ideal.ofBits, Ideal.ieee, -EReal.coe_mul]; norm_num

/-- The coercion ℝ → EReal commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over the reals, multiplication distributes over the finite sums: the low-rank correction
    c·Σ_r (Σ_i x_i·a_{r,i})·b_r can be folded into the weight, w_i + c·Σ_r b_r·a_{r,i}. -/
theorem real_fold {ι ρ : Type*} [Fintype ι] [Fintype ρ] (xv w : ι → ℝ) (β c : ℝ) (a : ρ → ι → ℝ) (bv : ρ → ℝ) :
    ((∑ i, xv i * w i) + β) + c * ∑ r, (∑ i, xv i * a r i) * bv r
      = (∑ i, xv i * (w i + c * ∑ r, bv r * a r i)) + β := by
  have key : ∑ i, xv i * (c * ∑ r, bv r * a r i) = c * ∑ r, (∑ i, xv i * a r i) * bv r := by
    simp only [Finset.mul_sum, Finset.sum_mul]
    rw [Finset.sum_comm]
    exact Finset.sum_congr rfl (fun r _ => Finset.sum_congr rfl (fun i _ => by ring))
  simp only [mul_add, Finset.sum_add_distrib]
  rw [key]
  ring

/-- The reference's value is the coercion of the common real value. -/
theorem refVal_normal {x : XIdx → EReal} {W : WIdx → EReal} {bias : BiasIdx → EReal} {A : AIdx → EReal} {B : BIdx → EReal}
    (R : RealInputs x W bias A B) (b : Fin 4) (s : Fin 2048) (o : Fin 4096) :
    refVal x W bias A B b s o = ((normal R.xr R.Wr R.br R.Ar R.Br b s o : ℝ) : EReal) := by
  unfold refVal normal
  simp only [R.hx, R.hW, R.hb, R.hA, R.hB, two_eq]
  simp only [← EReal.coe_mul, ← coe_sum, ← EReal.coe_add]
  exact congrArg _ (real_fold _ _ _ _ _ _)

/-- The accumulator after block k is the sum of the first k+1 block products: on the extended reals
    addition is associative, so adding the blocks one after the other is their sum. -/
theorem accTo_eq_sum (f : Fin 16 → EReal) :
    ∀ (k : ℕ) (h : k < 16), accTo f k h = ∑ i : Fin (k + 1), f ⟨i.val, by omega⟩
  | 0, h => by simp [accTo]
  | k + 1, h => by
    rw [accTo, accTo_eq_sum f k, Fin.sum_univ_castSucc (n := k + 1)]
    rfl

/-- The accumulator after the last block is the sum of all sixteen block products. -/
theorem accTo_last (f : Fin 16 → EReal) : accTo f 15 (by decide) = ∑ k : Fin 16, f k := by
  rw [accTo_eq_sum]

/-- Summing a function on Fin n block by block (a blocks of b consecutive indices, n = a·b) is summing it
    over all of Fin n: (k, j) ↦ k·b + j is a bijection Fin a × Fin b ≃ Fin (a·b). -/
theorem sum_blocks {M : Type*} [AddCommMonoid M] (a b n : ℕ) (hn : n = a * b) (g : Fin n → M)
    (hlt : ∀ (k : Fin a) (j : Fin b), k.val * b + j.val < n) :
    ∑ k : Fin a, ∑ j : Fin b, g ⟨k.val * b + j.val, hlt k j⟩ = ∑ i : Fin n, g i := by
  subst hn
  rw [← Equiv.sum_comp finProdFinEquiv g, Fintype.sum_prod_type]
  refine Finset.sum_congr rfl (fun k _ => Finset.sum_congr rfl (fun j _ => ?_))
  congr 1
  apply Fin.ext
  simp only [finProdFinEquiv, Equiv.coe_fn_mk]
  rw [Nat.mul_comm, Nat.add_comm]

/-- The kernel's value before the entries are read as reals: the sixteen block products add up to the full
    product of row m of x with row n of the folded weight. -/
theorem kerVal_eq_sum (x : XIdx → EReal) (W : WIdx → EReal) (bias : BiasIdx → EReal) (A : AIdx → EReal) (B : BIdx → EReal)
    (m : Fin 8192) (n : Fin 4096) :
    kerVal x W bias A B m n = (∑ i : Fin 4096, x2 x m i * weff W A B n i) + bias (ix1 n) := by
  unfold kerVal
  rw [accTo_last]
  unfold blockDot
  rw [sum_blocks 16 256 4096 (by norm_num) (fun i => x2 x m i * weff W A B n i)]

/-- The kernel's value is the coercion of the common real value at (m / 2048, m % 2048, n). -/
theorem kerVal_normal {x : XIdx → EReal} {W : WIdx → EReal} {bias : BiasIdx → EReal} {A : AIdx → EReal} {B : BIdx → EReal}
    (R : RealInputs x W bias A B) (m : Fin 8192) (n : Fin 4096) :
    kerVal x W bias A B m n = ((normal R.xr R.Wr R.br R.Ar R.Br (⟨m.val / 2048, by omega⟩ : Fin 4) (⟨m.val % 2048, by omega⟩ : Fin 2048) n : ℝ) : EReal) := by
  rw [kerVal_eq_sum]
  unfold x2 weff normal
  simp only [R.hx, R.hW, R.hb, R.hA, R.hB, two_eq]
  simp only [← EReal.coe_mul, ← coe_sum, ← EReal.coe_add]

end Cert.Lora

end
-- ==== Proof.Assemble.lean ====
/-
  The claim, assembled. Both programs run; the kernel's result is, entry by entry, the sixteen K-block products of
  a row of x with a row of the folded weight added one after the other plus the bias, and the reference's is the
  full product plus the bias plus twice the low-rank correction. Under the precondition every input entry is a real
  number, and then both are the coercion of one real number, because multiplication distributes over finite sums
  of reals; so the two results are equal entry by entry.
-/
import proofs.«126282_j75548474736691_2_alg».proof.Defs
import proofs.«126282_j75548474736691_2_alg».proof.Proof.KI.Run
import proofs.«126282_j75548474736691_2_alg».proof.Proof.K.Run
import proofs.«126282_j75548474736691_2_alg».proof.Proof.KernelValue
import proofs.«126282_j75548474736691_2_alg».proof.Proof.Spec
import proofs.«126282_j75548474736691_2_alg».proof.Proof.RefValue
import proofs.«126282_j75548474736691_2_alg».proof.Proof.Finite
import proofs.«126282_j75548474736691_2_alg».proof.Proof.Algebra

noncomputable section

namespace Cert.Proof.Assemble

open Idealize.ShloMosaic Idealize.ShloMosaic.TcCoe Idealize.SL.Sem Idealize.ShloMosaic.ValueIdx

/-- Row m = b·2048 + s of x read as a matrix is row (b, s) of x: the quotient and remainder by 2048. -/
theorem row_split (b : Fin 4) (s : Fin 2048) (h : b.val * 2048 + s.val < 8192) :
    (⟨(⟨b.val * 2048 + s.val, h⟩ : Fin 8192).val / 2048, by omega⟩ : Fin 4) = b
      ∧ (⟨(⟨b.val * 2048 + s.val, h⟩ : Fin 8192).val % 2048, by omega⟩ : Fin 2048) = s := by
  constructor
  · apply Fin.ext; show (b.val * 2048 + s.val) / 2048 = b.val; omega
  · apply Fin.ext; show (b.val * 2048 + s.val) % 2048 = s.val; omega

/-- With real inputs the kernel's value at row b·2048 + s and the reference's at (b, s) are equal. -/
theorem refVal_eq_kerVal {x : Cert.Lora.XIdx → EReal} {W : Cert.Lora.WIdx → EReal} {bias : Cert.Lora.BiasIdx → EReal}
    {A : Cert.Lora.AIdx → EReal} {B : Cert.Lora.BIdx → EReal} (R : Cert.Lora.RealInputs x W bias A B)
    (b : Fin 4) (s : Fin 2048) (o : Fin 4096) (h : b.val * 2048 + s.val < 8192) :
    Cert.Lora.refVal x W bias A B b s o = Cert.Lora.kerVal x W bias A B (⟨b.val * 2048 + s.val, h⟩ : Fin 8192) o := by
  rw [Cert.Lora.refVal_normal R, Cert.Lora.kerVal_normal R, (row_split b s h).1, (row_split b s h).2]

end Cert.Proof.Assemble

namespace Cert.Proof.Assemble

open Idealize.ShloMosaic Idealize.ShloMosaic.TcCoe Idealize.SL.Sem Idealize.ShloMosaic.ValueIdx

/-- The two programs at the ideal values, from memories that agree on the arguments: both run, the arguments end
    unchanged, and the results are equal entry by entry. The common value is the kernel's own final contents. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.W4 m c (Proc.devRef .tc Cert.KernelIdeal.main_v5), ?_, ?_⟩
  · exact (θ_run Cert.KernelIdeal.defs _ _).mono (fun r h c =>
      ⟨h c _ (Cert.KernelIdeal.Fr.mem_uc Cert.KernelIdeal.main_v5 (by decide)),
       (h c _ (Cert.KernelIdeal.Fr.mem_uc Cert.KernelIdeal.main_arg0 (by decide))).trans (Cert.KernelIdeal.Fr.W4_main_arg0 m c),
       (h c _ (Cert.KernelIdeal.Fr.mem_uc Cert.KernelIdeal.main_arg1 (by decide))).trans (Cert.KernelIdeal.Fr.W4_main_arg1 m c),
       (h c _ (Cert.KernelIdeal.Fr.mem_uc Cert.KernelIdeal.main_arg2 (by decide))).trans (Cert.KernelIdeal.Fr.W4_main_arg2 m c),
       (h c _ (Cert.KernelIdeal.Fr.mem_uc Cert.KernelIdeal.main_arg3 (by decide))).trans (Cert.KernelIdeal.Fr.W4_main_arg3 m c),
       (h c _ (Cert.KernelIdeal.Fr.mem_uc Cert.KernelIdeal.main_arg4 (by decide))).trans (Cert.KernelIdeal.Fr.W4_main_arg4 m c)⟩)
      (Cert.KernelIdeal.Fr.run_main m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4⟩ := hagree c
    rw [a0, a1, a2, a3, a4]
    refine (Cert.ReferenceIdeal.RefValue.result_eq _ _ _ _ _).trans ?_
    refine Eq.trans ?_ (Cert.KernelIdeal.KVal.kernel_value m c).symm
    obtain ⟨R⟩ := Cert.Lora.Finite.realInputs_of_Pre_KernelIdeal m hpre c
    funext j
    obtain ⟨b, s, o, rfl⟩ : ∃ (b : Fin 4) (s : Fin 2048) (o : Fin 4096), j = ix3 b s o := ⟨j 0, j 1, j 2, eq_ix3 j⟩
    exact refVal_eq_kerVal R b s o _

/-- The five claims together. -/
theorem claim_body : Cert.frame_Kernel (hKernel := Cert.Kernel.Gen.facts) (hPre_finite_inputs := Cert.Pre_finite_inputs.Gen.facts)
    ∧ Cert.frame_KernelIdeal (hKernelIdeal := Cert.KernelIdeal.Gen.facts) (hPre_finite_inputs := Cert.Pre_finite_inputs.Gen.facts)
    ∧ Cert.frame_ReferenceIdeal (hReferenceIdeal := Cert.ReferenceIdeal.Gen.facts) (hPre_finite_inputs := Cert.Pre_finite_inputs.Gen.facts)
    ∧ Cert.preserves_Kernel_KernelIdeal
    ∧ Cert.algebraic_KernelIdeal_ReferenceIdeal (hKernelIdeal := Cert.KernelIdeal.Gen.facts)
        (hReferenceIdeal := Cert.ReferenceIdeal.Gen.facts) (hPre_finite_inputs := Cert.Pre_finite_inputs.Gen.facts) :=
  ⟨fun m ρ _ => Cert.Kernel.Fr.frame m ρ, fun m ρ _ => Cert.KernelIdeal.Fr.frame m ρ,
    Cert.ReferenceIdeal.RefValue.frame_ri, trivial, algebraic⟩

end Cert.Proof.Assemble

end
-- ==== Proof.lean ====
/-
  The LoRA linear layer  out = x·Wᵀ + bias + 2·(x·Aᵀ)·Bᵀ  computed by two kernels against its jnp reference.

  The kernel program first folds the low-rank update into the weight, W_eff = W + 2·(B·A), block by block over a
  4×4 grid (region 0); then multiplies x, read as a matrix of 8192 rows, by W_effᵀ over a 4×4×16 grid, the sixteen
  K-blocks of an output block accumulated one after the other in a scratch buffer that is zeroed at the first
  K-block and, with the bias row added, stored into the output block at the last (region 1). The reference computes
  x·Wᵀ + bias and adds 2·((x·Aᵀ)·Bᵀ).

  Frames: both regions' bodies run on whole staging blocks; region 1's accumulator is carried through the region
  invariant at the contents the point before left (Proof/KI/R1.lean, Proof/K/R1.lean), and the two regions are joined
  with the host reshapes around them into one run of @main whose final memory holds every buffer at a fold of the
  launch memory (Proof/KI/Run.lean, Proof/K/Run.lean). The reference's frame is its generated run.

  Values at the ideal instance: region 0's output array is the folded weight entry by entry (Proof/Val0.lean); region
  1's is the accumulated block products plus the bias (Proof/Val1.lean); through the host reshapes the kernel's result
  at (b, s, o) is Spec's kerVal at row b·2048 + s (Proof/KernelValue.lean), the reference's is Spec's refVal
  (Proof/RefValue.lean). With every input finite (the precondition, decoded in Proof/Finite.lean) both equal
  Σ_i x[b,s,i]·(W[o,i] + 2·Σ_r B[o,r]·A[r,i]) + bias[o] over the reals, by distributing the product over the finite
  sums and regrouping the 4096 columns into sixteen blocks of 256 (Proof/Algebra.lean); the claims are assembled in
  Proof/Assemble.lean.
-/
import proofs.«126282_j75548474736691_2_alg».proof.Defs
import proofs.«126282_j75548474736691_2_alg».proof.Proof.Gen.Kernel
import proofs.«126282_j75548474736691_2_alg».proof.Proof.Gen.KernelIdeal
import proofs.«126282_j75548474736691_2_alg».proof.Proof.Gen.ReferenceIdeal
import proofs.«126282_j75548474736691_2_alg».proof.Proof.Gen.Pre_finite_inputs
import proofs.«126282_j75548474736691_2_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Assemble.claim_body⟩

end Cert.Proof

end
